-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S1x128 : Shape := ⟨2, ![1, 128]⟩
abbrev S2000x128 : Shape := ⟨2, ![2000, 128]⟩
abbrev S600000x128 : Shape := ⟨2, ![600000, 128]⟩
abbrev S2000x1 : Shape := ⟨2, ![2000, 1]⟩
abbrev S1x64 : Shape := ⟨2, ![1, 64]⟩
abbrev S100000x64 : Shape := ⟨2, ![100000, 64]⟩
abbrev S2000x64 : Shape := ⟨2, ![2000, 64]⟩
abbrev S600000x64 : Shape := ⟨2, ![600000, 64]⟩

abbrev nBuf : Space → Nat
  | .hbm => 57
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S100000, .f32⟩
  | .hbm, ⟨18, _⟩ => ⟨S600000x1, .i32⟩
  | .hbm, ⟨19, _⟩ => ⟨S100000, .f32⟩
  | .hbm, ⟨20, _⟩ => ⟨S100000x1, .f32⟩
  | .hbm, ⟨21, _⟩ => ⟨S1x128, .f32⟩
  | .hbm, ⟨22, _⟩ => ⟨S100000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S1x128, .f32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S100000x128, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S1x64, .f32⟩
  | .hbm, ⟨51, _⟩ => ⟨S600000x64, .f32⟩
  | .hbm, ⟨52, _⟩ => ⟨S_, .f32⟩
  | .hbm, ⟨53, _⟩ => ⟨S100000x64, .f32⟩
  | .hbm, ⟨54, _⟩ => ⟨S600000x1, .i32⟩
  | .hbm, ⟨55, _⟩ => ⟨S100000x64, .f32⟩
  | .hbm, ⟨56, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S2000x128, .f32⟩
  | .local _ .vmem, ⟨27, _⟩ => ⟨S2000x128, .f32⟩
  | .local _ .vmem, ⟨28, _⟩ => ⟨S128x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x1, .f32⟩
  | .local _ .vmem, ⟨37, _⟩ => ⟨S2000x1, .f32⟩
  | .local _ .vmem, ⟨38, _⟩ => ⟨S2000x64, .f32⟩
  | .local _ .vmem, ⟨39, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![300], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![300], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  bcast_S_S100000x128 : S_.BroadcastsInDim S100000x128 (![] : Fin 0 → Fin S100000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S2000x64_S2000x64 : S2000x64.ShapeCasts S2000x64
  broadcasts_S2000x1_S2000x64 : S2000x1.Broadcasts S2000x64
  scatter_S100000_S600000x1_S600000_n_0_0_1_wf : ScatterDims.WF S100000 S600000x1 S600000 [] [0] [0] 1
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x64_S2000x64_1_0_0_1_n_n_wf : DotDims.WF S2000x128 S128x64 S2000x64 [1] [0] [0] [1] [] []
  scatter_S100000x64_S600000x1_S600000x64_1_0_0_1_wf : ScatterDims.WF S100000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S600000x128.size a
  hwx1_0 : ∀ i : grid1.Coords, EltTy.bits .f32 = 32 ∨ (Rect.block (s := S600000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S600000x128.size a
  hwx1_3 : ∀ i : grid1.Coords, EltTy.bits .f32 = 32 ∨ (Rect.block (s := S600000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S600000x128.size a
  hwx4_0 : ∀ i : grid4.Coords, EltTy.bits .f32 = 32 ∨ (Rect.block (s := S600000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S600000x64.size a
  hwx4_3 : ∀ i : grid4.Coords, EltTy.bits .f32 = 32 ∨ (Rect.block (s := S600000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S100000x64.size a
  hwx5_3 : ∀ i : grid5.Coords, EltTy.bits .f32 = 32 ∨ (Rect.block (s := S100000x64) S2000x64.size (cc5_transform_3 i) (hinb5_3 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v23) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v32) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v25) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v37) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v8) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v38) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S600000x64 : Shape := ⟨2, ![600000, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S600000x128, .f32⟩
  | .hbm, ⟨28, _⟩ => ⟨S1x128, .f32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S100000x128, .f32⟩
  | .hbm, ⟨33, _⟩ => ⟨S600000x1, .i32⟩
  | .hbm, ⟨34, _⟩ => ⟨S100000x128, .f32⟩
  | .hbm, ⟨35, _⟩ => ⟨S_, .f32⟩
  | .hbm, ⟨36, _⟩ => ⟨S600000, .f32⟩
  | .hbm, ⟨37, _⟩ => ⟨S_, .f32⟩
  | .hbm, ⟨38, _⟩ => ⟨S100000, .f32⟩
  | .hbm, ⟨39, _⟩ => ⟨S600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S600000x64, .f32⟩
  | .hbm, ⟨65, _⟩ => ⟨S1x64, .f32⟩
  | .hbm, ⟨66, _⟩ => ⟨S600000x64, .f32⟩
  | .hbm, ⟨67, _⟩ => ⟨S600000x64, .f32⟩
  | .hbm, ⟨68, _⟩ => ⟨S_, .f32⟩
  | .hbm, ⟨69, _⟩ => ⟨S100000x64, .f32⟩
  | .hbm, ⟨70, _⟩ => ⟨S600000x1, .i32⟩
  | .hbm, ⟨71, _⟩ => ⟨S100000x64, .f32⟩
  | .hbm, ⟨72, _⟩ => ⟨S_, .f32⟩
  | .hbm, ⟨73, _⟩ => ⟨S600000, .f32⟩
  | .hbm, ⟨74, _⟩ => ⟨S_, .f32⟩
  | .hbm, ⟨75, _⟩ => ⟨S100000, .f32⟩
  | .hbm, ⟨76, _⟩ => ⟨S600000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S1x128_S600000x128_0_1 : S1x128.BroadcastsInDim S600000x128 (![0, 1] : Fin 2 → Fin S600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S600000x64_0_1 : S1x64.BroadcastsInDim S600000x64 (![0, 1] : Fin 2 → Fin S600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x64_S100000x64_1_0_0_1_n_n_wf : DotDims.WF S100000x128 S128x64 S100000x64 [1] [0] [0] [1] [] []
  dot_S600000x128_S128x64_S600000x64_1_0_0_1_n_n_wf : DotDims.WF S600000x128 S128x64 S600000x64 [1] [0] [0] [1] [] []
  scatter_S100000x64_S600000x1_S600000x64_1_0_0_1_wf : ScatterDims.WF S100000x64 S600000x1 S600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S600000x128_S128x64_S600000x64_1_0_0_1_n_n : DotDims S600000x128 S128x64 S600000x64 where
  lhsContracting := [1]
  rhsContracting := [0]
  lhsNonContracting := [0]
  rhsNonContracting := [1]
  lhsBatch := []
  rhsBatch := []
  wf := dot_S600000x128_S128x64_S600000x64_1_0_0_1_n_n_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

class Facts : Prop extends Facts₀ where

variable [Facts]
-- ==== Proof.KernelRun.lean ====
/-
  The idealized tile program's run with its result named.  Every weakly fair execution of the whole program — six tiled
  regions among stretches of host operations — terminates without a fault; the result array ends at the contents the last
  region leaves (the fold of the segments' contents from the launch memory, read at the result's buffer) and the ten
  argument arrays end as launched.  The segments, their records and the launch are the generated frame's; what is added
  is the result buffer's reading in the final state.
-/
import proofs.«129675_j14929306321143_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v38) = W12 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v38 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.Whole

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.LibSageLayers.lean ====
/-
  The two layer shapes of a GraphSAGE convolution, as whole-array functions over the extended reals, and what the
  tile bodies and the host program compute, read against them.

  * `dense X W b`: entry (r, j) is  (∑ k, X (r, k) * W (k, j)) + b (0, j)  — a fully connected layer with the bias
    kept as a [1, N] row.
  * `combine wh s c`: entry (r, j) is  wh (r, j) + s (r, j) / max (c (r, 0), 1)  — the self term plus the mean of the
    summed neighbour terms, the in-degree kept as an [M, 1] column and clamped below by one;
    `combineRelu` is its positive part.

  A tile of rows computes the same functions of its rows (`dense_tile`, `combine_tile`, `combineRelu_tile`), and the
  host's spelling — a `dot_general` plus a bias broadcast twice, a quotient by the clamped degree broadcast twice —
  is the same function of the whole arrays (`dense_host`, `combine_host`, `combineRelu_host`).
-/
import Idealize.ShloMosaic.Lib.ValueIdx
import Idealize.ShloMosaic.Lib.Pipeline.Value
import Idealize.ShloMosaic.Lib.ValueLayout
import Idealize.ShloMosaic.PureOps.Ideal.Laws
import proofs.«129675_j14929306321143_1_alg».proof.Proof.LibDense

noncomputable section

namespace Cert.Sage

open Idealize.ShloMosaic Idealize.ShloMosaic.ValueIdx

/-- The f32 words of one and of zero, as extended reals. -/
abbrev one : EReal := Ideal.ofBits .f32 0x3F800000#32
abbrev zero : EReal := Ideal.ofBits .f32 0x00000000#32

/-- A fully connected layer: row r of X against column j of W, plus the bias row's entry j. -/
def dense {M K N : Nat} (X : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun i => (∑ k : Fin K, X (ix2 (n0 := M) (i 0) k) * W (ix2 (n1 := N) k (i 1))) + b (ix2 (0 : Fin 1) (n1 := N) (i 1))

/-- The self term plus the neighbour mean: the summed neighbour terms over the in-degree clamped below by one. -/
def combine {M N : Nat} (wh s : (⟨2, ![M, N]⟩ : Shape).Idx → EReal) (c : (⟨2, ![M, 1]⟩ : Shape).Idx → EReal) :
    (⟨2, ![M, N]⟩ : Shape).Idx → EReal :=
  fun i => wh i + Ideal.div (s i) (max (c (ix2 (n0 := M) (i 0) (0 : Fin 1))) one)

/-- Its positive part. -/
def combineRelu {M N : Nat} (wh s : (⟨2, ![M, N]⟩ : Shape).Idx → EReal) (c : (⟨2, ![M, 1]⟩ : Shape).Idx → EReal) :
    (⟨2, ![M, N]⟩ : Shape).Idx → EReal :=
  fun i => max (combine wh s c i) zero

theorem dense_ix2 {M K N : Nat} (X : (⟨2, ![M, K]⟩ : Shape).Idx → EReal) (W : (⟨2, ![K, N]⟩ : Shape).Idx → EReal)
    (b : (⟨2, ![1, N]⟩ : Shape).Idx → EReal) (r : Fin M) (j : Fin N) :
    dense X W b (ix2 r j) = (∑ k : Fin K, X (ix2 r k) * W (ix2 k j)) + b (ix2 (0 : Fin 1) j) := rfl

theorem combine_ix2 {M N : Nat} (wh s : (⟨2, ![M, N]⟩ : Shape).Idx → EReal) (c : (⟨2, ![M, 1]⟩ : Shape).Idx → EReal)
    (r : Fin M) (j : Fin N) :
    combine wh s c (ix2 r j) = wh (ix2 r j) + Ideal.div (s (ix2 r j)) (max (c (ix2 r (0 : Fin 1))) one) := rfl

/-! ## A tile of rows -/

/-- The product of a tile's rows (rounded to bf16 on the way in: the identity on extended reals) with the weights into a
    zero accumulator, plus the bias row spread down the tile, is the dense layer of the tile. -/
theorem dense_tile {n K N : Nat}
    (wf : DotDims.WF (⟨2, ![n, K]⟩ : Shape) ⟨2, ![K, N]⟩ ⟨2, ![n, N]⟩ [1] [0] [0] [1] [] [])
    (x0 : FVec Ideal (⟨2, ![n, K]⟩ : Shape) .f32) (x1 : FVec Ideal (⟨2, ![K, N]⟩ : Shape) .f32)
    (x2 : FVec Ideal (⟨2, ![1, N]⟩ : Shape) .f32) (hlt : FTy.bits .bf16 < FTy.bits .f32)
    (hbc : (⟨2, ![1, N]⟩ : Shape).Broadcasts ⟨2, ![n, N]⟩) :
    addf (matmul (LibDense.plainOf wf) none (truncf .bf16 x0 hlt) (truncf .bf16 x1 hlt)
        (constant (⟨2, ![n, N]⟩ : Shape) .f32 0x00000000#32)) (broadcastTo (⟨2, ![n, N]⟩ : Shape) x2 hbc)
      = dense x0 x1 x2 := by
  funext i
  obtain ⟨r, j, rfl⟩ : ∃ (r : Fin n) (j : Fin N), i = ix2 r j := ⟨i 0, i 1, eq_ix2 i⟩
  exact LibDense.dense_apply wf (truncf .bf16 x0 hlt) (truncf .bf16 x1 hlt) x2 hbc r j

/-- The tile's self rows plus its summed rows over the clamped degree column spread across the columns. -/
theorem combine_tile {n N : Nat} (wh s : FVec Ideal (⟨2, ![n, N]⟩ : Shape) .f32)
    (c : FVec Ideal (⟨2, ![n, 1]⟩ : Shape) .f32) (hbc : (⟨2, ![n, 1]⟩ : Shape).Broadcasts ⟨2, ![n, N]⟩) :
    addf wh (divf s (broadcastTo (⟨2, ![n, N]⟩ : Shape)
        (maximumf c (broadcast (⟨2, ![n, 1]⟩ : Shape) (Scalar.ofBits (F := Ideal) .f32 0x3F800000#32))) hbc))
      = combine wh s c := by
  funext i
  obtain ⟨r, j, rfl⟩ : ∃ (r : Fin n) (j : Fin N), i = ix2 r j := ⟨i 0, i 1, eq_ix2 i⟩
  show wh (ix2 r j) + Ideal.div (s (ix2 r j)) (broadcastTo (⟨2, ![n, N]⟩ : Shape)
      (maximumf c (broadcast (⟨2, ![n, 1]⟩ : Shape) (Scalar.ofBits (F := Ideal) .f32 0x3F800000#32))) hbc (ix2 r j)) = _
  rw [LibDense.spread_col_apply]
  rfl

theorem combineRelu_tile {n N : Nat} (wh s : FVec Ideal (⟨2, ![n, N]⟩ : Shape) .f32)
    (c : FVec Ideal (⟨2, ![n, 1]⟩ : Shape) .f32) (hbc : (⟨2, ![n, 1]⟩ : Shape).Broadcasts ⟨2, ![n, N]⟩) :
    maximumf (addf wh (divf s (broadcastTo (⟨2, ![n, N]⟩ : Shape)
        (maximumf c (broadcast (⟨2, ![n, 1]⟩ : Shape) (Scalar.ofBits (F := Ideal) .f32 0x3F800000#32))) hbc)))
        (broadcast (⟨2, ![n, N]⟩ : Shape) (Scalar.ofBits (F := Ideal) .f32 0x00000000#32))
      = combineRelu wh s c := by
  rw [combine_tile]
  rfl

/-! ## The host's spelling -/

/-- A length-a array laid out as an [a, 1] column reads, at (p, 0), the array at p. -/
theorem column_apply {α : Type} {a : Nat} (x : (⟨1, ![a]⟩ : Shape).Idx → α)
    (h : (⟨1, ![a]⟩ : Shape).ShapeCasts ⟨2, ![a, 1]⟩) (p : Fin a) (u : Fin 1) :
    shapeCast (⟨2, ![a, 1]⟩ : Shape) x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's dense layer: `dot_general` plus the bias laid out as a row and spread down the rows. -/
theorem dense_host {M K N : Nat}
    (wf : DotDims.WF (⟨2, ![M, K]⟩ : Shape) ⟨2, ![K, N]⟩ ⟨2, ![M, N]⟩ [1] [0] [0] [1] [] [])
    (X : FVec Ideal (⟨2, ![M, K]⟩ : Shape) .f32) (W : FVec Ideal (⟨2, ![K, N]⟩ : Shape) .f32)
    (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hsc : (⟨1, ![N]⟩ : Shape).ShapeCasts ⟨2, ![1, N]⟩) :
    addf (Host.dotGeneral (LibDense.plainOf wf) none X W)
        (broadcastInDim (⟨2, ![M, N]⟩ : Shape) ![0, 1] h2 (broadcastInDim (⟨2, ![1, N]⟩ : Shape) ![1] h1 b))
      = dense X W (shapeCast (⟨2, ![1, N]⟩ : Shape) b hsc) := by
  funext i
  obtain ⟨r, j, rfl⟩ : ∃ (r : Fin M) (j : Fin N), i = ix2 r j := ⟨i 0, i 1, eq_ix2 i⟩
  rw [dense_ix2, shapeCast_a_1a_apply]
  refine congrArg₂ (· + ·) (LibDense.dotGeneral_plain wf none .single X W r j) ?_
  refine (broadcastInDim_apply ![0, 1] h2 _ (ix2 r j) (ix2 (0 : Fin 1) j) fun a => ?_).trans
    (broadcastInDim_apply ![1] h1 b (ix2 (0 : Fin 1) j) (ix1 j) fun a => ?_)
  · match a with
    | ⟨0, _⟩ => rfl
    | ⟨1, _⟩ =>
      show j.val = if N = 1 then 0 else j.val
      split
      · have := j.isLt; omega
      · rfl
  · match a with
    | ⟨0, _⟩ =>
      show j.val = if N = 1 then 0 else j.val
      split
      · have := j.isLt; omega
      · rfl

/-- The clamped in-degree, laid out as a column and spread across the columns, read at (r, j). -/
theorem degree_host {M N : Nat} (cnt : FVec Ideal (⟨1, ![M]⟩ : Shape) .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1]) (r : Fin M) (j : Fin N) :
    broadcastInDim (⟨2, ![M, N]⟩ : Shape) ![0, 1] h2 (broadcastInDim (⟨2, ![M, 1]⟩ : Shape) ![0] h1
        (maximumf cnt (broadcastInDim (⟨1, ![M]⟩ : Shape) ![] h0 (constant (F := Ideal) (⟨0, ![]⟩ : Shape) .f32 0x3F800000#32))))
      (ix2 r j) = max (cnt (ix1 r)) one := by
  refine (broadcastInDim_apply ![0, 1] h2 _ (ix2 r j) (ix2 r (0 : Fin 1)) fun a => ?_).trans
    ((broadcastInDim_apply ![0] h1 _ (ix2 r (0 : Fin 1)) (ix1 r) fun a => ?_).trans rfl)
  · match a with
    | ⟨0, _⟩ =>
      show r.val = if M = 1 then 0 else r.val
      split
      · have := r.isLt; omega
      · rfl
    | ⟨1, _⟩ => rfl
  · match a with
    | ⟨0, _⟩ =>
      show r.val = if M = 1 then 0 else r.val
      split
      · have := r.isLt; omega
      · rfl

/-- The host's combine: the self term plus the quotient by the clamped in-degree. -/
theorem combine_host {M N : Nat} (wh s : FVec Ideal (⟨2, ![M, N]⟩ : Shape) .f32)
    (cnt : FVec Ideal (⟨1, ![M]⟩ : Shape) .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (hsc : (⟨1, ![M]⟩ : Shape).ShapeCasts ⟨2, ![M, 1]⟩) :
    addf wh (Host.divf s (broadcastInDim (⟨2, ![M, N]⟩ : Shape) ![0, 1] h2 (broadcastInDim (⟨2, ![M, 1]⟩ : Shape) ![0] h1
        (maximumf cnt (broadcastInDim (⟨1, ![M]⟩ : Shape) ![] h0 (constant (F := Ideal) (⟨0, ![]⟩ : Shape) .f32 0x3F800000#32))))))
      = combine wh s (shapeCast (⟨2, ![M, 1]⟩ : Shape) cnt hsc) := by
  funext i
  obtain ⟨r, j, rfl⟩ : ∃ (r : Fin M) (j : Fin N), i = ix2 r j := ⟨i 0, i 1, eq_ix2 i⟩
  rw [combine_ix2, column_apply]
  exact congrArg (fun z => wh (ix2 r j) + Ideal.div (s (ix2 r j)) z) (degree_host cnt h0 h1 h2 r j)

/-- The host's combine followed by its `relu` (the maximum with a zero array). -/
theorem combineRelu_host {M N : Nat} (wh s : FVec Ideal (⟨2, ![M, N]⟩ : Shape) .f32)
    (cnt : FVec Ideal (⟨1, ![M]⟩ : Shape) .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (hz : (⟨0, ![]⟩ : Shape).BroadcastsInDim ⟨2, ![M, N]⟩ ![])
    (hsc : (⟨1, ![M]⟩ : Shape).ShapeCasts ⟨2, ![M, 1]⟩) :
    maximumf (addf wh (Host.divf s (broadcastInDim (⟨2, ![M, N]⟩ : Shape) ![0, 1] h2 (broadcastInDim (⟨2, ![M, 1]⟩ : Shape) ![0] h1
        (maximumf cnt (broadcastInDim (⟨1, ![M]⟩ : Shape) ![] h0 (constant (F := Ideal) (⟨0, ![]⟩ : Shape) .f32 0x3F800000#32)))))))
        (broadcastInDim (⟨2, ![M, N]⟩ : Shape) ![] hz (constant (F := Ideal) (⟨0, ![]⟩ : Shape) .f32 0x00000000#32))
      = combineRelu wh s (shapeCast (⟨2, ![M, 1]⟩ : Shape) cnt hsc) := by
  rw [combine_host wh s cnt h0 h1 h2 hsc]
  rfl

end Cert.Sage

end
-- ==== Proof.Region0.lean ====
/-
  Tile region 0: a dense layer tiled over 50 blocks of 2000 rows.  Each grid point loads rows
  2000·t … 2000·t + 1999 of the left operand, the whole weight matrix and the whole bias row, and writes the same rows
  of the result; the blocks tile the result array, so after the region the array is the dense layer of the three arrays
  as the region found them.
-/
import proofs.«129675_j14929306321143_1_alg».proof.Proof.Gen.KernelIdeal.Frame
import proofs.«129675_j14929306321143_1_alg».proof.Proof.LibSageLayers
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the tile body stores is the dense layer of the tiles it loaded. -/
theorem pay_eq (x0 : Vec Ideal S2000x128 .f32) (x1 : Vec Ideal S128x128 .f32) (x2 : Vec Ideal S1x128 .f32) :
    k0_pay1 (F := Ideal) x0 x1 x2 = Sage.dense (M := 2000) (K := 128) (N := 128) x0 x1 x2 := by
  unfold k0_pay1
  simp only [shapeCast_self]
  exact Sage.dense_tile dot_S2000x128_S128x128_S2000x128_1_0_0_1_n_n_wf x0 x1 x2 bitsLt_bf16_f32 broadcasts_S1x128_S2000x128

/-- The printed index maps over the grid: the row operand and the result move down one block per point, the weights and
    the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_grid (t : Fin cfg0.N) : t.val < 50 :=
  lt_of_lt_of_eq t.isLt (show cfg0.N = 50 from N_0)

/-- The row operand's block at point t, read at (p, k): row 2000·t + p of the array. -/
theorem rows_read (c : Dev nD) (t : Fin cfg0.N) (p : Fin 2000) (k : Fin 128) (h : t.val * 2000 + p.val < 100000) :
    iblk0 V c 0 t (ix2 p k) = (V c main_arg0 : S100000x128.Idx → EReal) (ix2 ⟨t.val * 2000 + p.val, h⟩ k) := by
  obtain ⟨e0, e1, -⟩ := idx_facts t
  unfold iblk0
  rw [View.read_apply]
  show (V c main_arg0 : S100000x128.Idx → EReal) (((cfg0.win 0).blk t).view.emb (ix2 p k)) = _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The weights' block at any point is the whole matrix. -/
theorem weights_read (c : Dev nD) (t : Fin cfg0.N) (k : Fin 128) (q : Fin 128) :
    iblk0 V c 1 t (ix2 k q) = (V c main_arg2 : S128x128.Idx → EReal) (ix2 k q) := by
  obtain ⟨-, -, e2, e3, -⟩ := idx_facts t
  unfold iblk0
  rw [View.read_apply]
  show (V c main_arg2 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias row's block at any point is the whole row. -/
theorem bias_read (c : Dev nD) (t : Fin cfg0.N) (u : Fin 1) (q : Fin 128) :
    iblk0 V c 2 t (ix2 u q) = (V c main_v9 : S1x128.Idx → EReal) (ix2 u q) := by
  obtain ⟨-, -, -, -, e4, e5, -⟩ := idx_facts t
  unfold iblk0
  rw [View.read_apply]
  show (V c main_v9 : S1x128.Idx → EReal) (((cfg0.win 2).blk t).view.emb (ix2 u q)) = _
  refine congrArg _ (funext fun a => Fin.ext ?_)
  match a with
  | ⟨0, _⟩ => show win0_2.index t (0 : Fin 2) * 1 + 1 * u.val = u.val; rw [e4]; omega
  | ⟨1, _⟩ => show win0_2.index t (1 : Fin 2) * 128 + 1 * q.val = q.val; rw [e5]; omega

/-- What point t writes back is block t of the dense layer of the arrays the region found. -/
theorem flushed_eq (c : Dev nD) (t : Fin cfg0.N) :
    (dat0 V c).flushed 3 t = ((cfg0.win 3).blk t).view.read (Elt Ideal)
      (Sage.dense (M := 100000) (K := 128) (N := 128) (V c main_arg0) (V c main_arg2) (V c main_v9)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  rw [pay_eq]
  obtain ⟨-, -, -, -, -, -, e6, e7⟩ := idx_facts t
  have ht := lt_grid t
  funext j
  obtain ⟨p, q, rfl⟩ : ∃ (p : Fin 2000) (q : Fin 128), j = ix2 p q := ⟨j 0, j 1, eq_ix2 j⟩
  have hp := p.isLt
  have hrow : t.val * 2000 + p.val < 100000 := by omega
  have hemb : ((cfg0.win 3).blk t).view.emb (ix2 p q) = (ix2 ⟨t.val * 2000 + p.val, hrow⟩ q : S100000x128.Idx) := by
    refine funext fun a => Fin.ext ?_
    match a with
    | ⟨0, _⟩ => show win0_3.index t (0 : Fin 2) * 2000 + 1 * p.val = t.val * 2000 + p.val; rw [e6]; omega
    | ⟨1, _⟩ => show win0_3.index t (1 : Fin 2) * 128 + 1 * q.val = q.val; rw [e7]; omega
  show Sage.dense (M := 2000) (K := 128) (N := 128) (iblk0 V c 0 t) (iblk0 V c 1 t) (iblk0 V c 2 t) (ix2 p q)
    = Sage.dense (M := 100000) (K := 128) (N := 128) (V c main_arg0) (V c main_arg2) (V c main_v9) (((cfg0.win 3).blk t).view.emb (ix2 p q))
  rw [hemb, Sage.dense_ix2, Sage.dense_ix2, bias_read V c t]
  refine congrArg (· + _) (Finset.sum_congr rfl fun k _ => ?_)
  rw [rows_read V c t p k hrow, weights_read V c t k q]

/-- An index of the result array is in point t's block iff its row is among the block's 2000 rows. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v10).slice (win0_3.rect t)).set ↔ _
  rw [View.set_slice_whole, Rect.mem_set_unit]
  exact Iff.rfl

/-- Row r of the result is written by point r / 2000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨-, -, -, -, -, -, e6, e7⟩ := idx_facts ⟨(i 0).val / 2000, hlt⟩
  refine ⟨⟨(i 0).val / 2000, hlt⟩, flush0_3 _, ?_⟩
  rw [mem_blk]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    rw [e7]
    omega

/-- After the region the result array is the dense layer of the arrays the region found. -/
theorem final (c : Dev nD) :
    (dat0 V c).arrAt 3 cfg0.N
      = Sage.dense (M := 100000) (K := 128) (N := 128) (V c main_arg0) (V c main_arg2) (V c main_v9) :=
  (dat0 V c).arrAt_eq_of_cover 3 _ (fun t _ => flushed_eq V c t) cover

end Cert.KernelIdeal.Region0

end
-- ==== Proof.Region1.lean ====
/-
  Tile region 1: a dense layer tiled over 300 blocks of 2000 rows.  Each grid point loads rows
  2000·t … 2000·t + 1999 of the left operand, the whole weight matrix and the whole bias row, and writes the same rows
  of the result; the blocks tile the result array, so after the region the array is the dense layer of the three arrays
  as the region found them.
-/
import proofs.«129675_j14929306321143_1_alg».proof.Proof.Gen.KernelIdeal.Frame
import proofs.«129675_j14929306321143_1_alg».proof.Proof.LibSageLayers
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the tile body stores is the dense layer of the tiles it loaded. -/
theorem pay_eq (x0 : Vec Ideal S2000x128 .f32) (x1 : Vec Ideal S128x128 .f32) (x2 : Vec Ideal S1x128 .f32) :
    k1_pay1 (F := Ideal) x0 x1 x2 = Sage.dense (M := 2000) (K := 128) (N := 128) x0 x1 x2 := by
  unfold k1_pay1
  simp only [shapeCast_self]
  exact Sage.dense_tile dot_S2000x128_S128x128_S2000x128_1_0_0_1_n_n_wf x0 x1 x2 bitsLt_bf16_f32 broadcasts_S1x128_S2000x128

/-- The printed index maps over the grid: the row operand and the result move down one block per point, the weights and
    the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_grid (t : Fin cfg1.N) : t.val < 300 :=
  lt_of_lt_of_eq t.isLt (show cfg1.N = 300 from N_1)

/-- The row operand's block at point t, read at (p, k): row 2000·t + p of the array. -/
theorem rows_read (c : Dev nD) (t : Fin cfg1.N) (p : Fin 2000) (k : Fin 128) (h : t.val * 2000 + p.val < 600000) :
    iblk1 V c 0 t (ix2 p k) = (V c main_v17 : S600000x128.Idx → EReal) (ix2 ⟨t.val * 2000 + p.val, h⟩ k) := by
  obtain ⟨e0, e1, -⟩ := idx_facts t
  unfold iblk1
  rw [View.read_apply]
  show (V c main_v17 : S600000x128.Idx → EReal) (((cfg1.win 0).blk t).view.emb (ix2 p k)) = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The weights' block at any point is the whole matrix. -/
theorem weights_read (c : Dev nD) (t : Fin cfg1.N) (k : Fin 128) (q : Fin 128) :
    iblk1 V c 1 t (ix2 k q) = (V c main_arg4 : S128x128.Idx → EReal) (ix2 k q) := by
  obtain ⟨-, -, e2, e3, -⟩ := idx_facts t
  unfold iblk1
  rw [View.read_apply]
  show (V c main_arg4 : S128x128.Idx → EReal) (((cfg1.win 1).blk t).view.emb (ix2 k q)) = _
  refine congrArg _ (funext fun a => Fin.ext ?_)
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- The bias row's block at any point is the whole row. -/
theorem bias_read (c : Dev nD) (t : Fin cfg1.N) (u : Fin 1) (q : Fin 128) :
    iblk1 V c 2 t (ix2 u q) = (V c main_v18 : S1x128.Idx → EReal) (ix2 u q) := by
  obtain ⟨-, -, -, -, e4, e5, -⟩ := idx_facts t
  unfold iblk1
  rw [View.read_apply]
  show (V c main_v18 : S1x128.Idx → EReal) (((cfg1.win 2).blk t).view.emb (ix2 u q)) = _
  refine congrArg _ (funext fun a => Fin.ext ?_)
  match a with
  | ⟨0, _⟩ => show win1_2.index t (0 : Fin 2) * 1 + 1 * u.val = u.val; rw [e4]; omega
  | ⟨1, _⟩ => show win1_2.index t (1 : Fin 2) * 128 + 1 * q.val = q.val; rw [e5]; omega

/-- What point t writes back is block t of the dense layer of the arrays the region found. -/
theorem flushed_eq (c : Dev nD) (t : Fin cfg1.N) :
    (dat1 V c).flushed 3 t = ((cfg1.win 3).blk t).view.read (Elt Ideal)
      (Sage.dense (M := 600000) (K := 128) (N := 128) (V c main_v17) (V c main_arg4) (V c main_v18)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz, View.ld_unit_zero (S := S1x128) hz]
  rw [pay_eq]
  obtain ⟨-, -, -, -, -, -, e6, e7⟩ := idx_facts t
  have ht := lt_grid t
  funext j
  obtain ⟨p, q, rfl⟩ : ∃ (p : Fin 2000) (q : Fin 128), j = ix2 p q := ⟨j 0, j 1, eq_ix2 j⟩
  have hp := p.isLt
  have hrow : t.val * 2000 + p.val < 600000 := by omega
  have hemb : ((cfg1.win 3).blk t).view.emb (ix2 p q) = (ix2 ⟨t.val * 2000 + p.val, hrow⟩ q : S600000x128.Idx) := by
    refine funext fun a => Fin.ext ?_
    match a with
    | ⟨0, _⟩ => show win1_3.index t (0 : Fin 2) * 2000 + 1 * p.val = t.val * 2000 + p.val; rw [e6]; omega
    | ⟨1, _⟩ => show win1_3.index t (1 : Fin 2) * 128 + 1 * q.val = q.val; rw [e7]; omega
  show Sage.dense (M := 2000) (K := 128) (N := 128) (iblk1 V c 0 t) (iblk1 V c 1 t) (iblk1 V c 2 t) (ix2 p q)
    = Sage.dense (M := 600000) (K := 128) (N := 128) (V c main_v17) (V c main_arg4) (V c main_v18) (((cfg1.win 3).blk t).view.emb (ix2 p q))
  rw [hemb, Sage.dense_ix2, Sage.dense_ix2, bias_read V c t]
  refine congrArg (· + _) (Finset.sum_congr rfl fun k _ => ?_)
  rw [rows_read V c t p k hrow, weights_read V c t k q]

/-- An index of the result array is in point t's block iff its row is among the block's 2000 rows. -/
theorem mem_blk (t : Fin cfg1.N) (i : S600000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v19).slice (win1_3.rect t)).set ↔ _
  rw [View.set_slice_whole, Rect.mem_set_unit]
  exact Iff.rfl

/-- Row r of the result is written by point r / 2000. -/
theorem cover (i : S600000x128.Idx) : ∃ t : Fin cfg1.N, (cfg1.win 3).flush t = true ∧ i ∈ ((cfg1.win 3).blk t).view.set := by
  have hi0 : (i 0).val < 600000 := (i 0).isLt
  have hi1 : (i 1).val < 128 := (i 1).isLt
  have hN : cfg1.N = 300 := N_1
  have hlt : (i 0).val / 2000 < cfg1.N := by rw [hN]; omega
  obtain ⟨-, -, -, -, -, -, e6, e7⟩ := idx_facts ⟨(i 0).val / 2000, hlt⟩
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win1_3.index ⟨(i 0).val / 2000, hlt⟩ (1 : Fin 2) * 128 ≤ (i 1).val ∧ (i 1).val < win1_3.index ⟨(i 0).val / 2000, hlt⟩ (1 : Fin 2) * 128 + 128
    rw [e7]
    omega

/-- After the region the result array is the dense layer of the arrays the region found. -/
theorem final (c : Dev nD) :
    (dat1 V c).arrAt 3 cfg1.N
      = Sage.dense (M := 600000) (K := 128) (N := 128) (V c main_v17) (V c main_arg4) (V c main_v18) :=
  (dat1 V c).arrAt_eq_of_cover 3 _ (fun t _ => flushed_eq V c t) cover

end Cert.KernelIdeal.Region1

end
-- ==== Proof.Region2.lean ====
/-
  Tile region 2: the self term plus the neighbour mean, then its positive part, tiled over 50 blocks of 2000 rows.
  Each grid point loads rows 2000·t … 2000·t + 1999 of the self term, of the summed neighbour terms and of the in-degree
  column, and writes the same rows of the result; the blocks tile the result array, so after the region the array is the
  whole-array combine of the three arrays as the region found them.
-/
import proofs.«129675_j14929306321143_1_alg».proof.Proof.Gen.KernelIdeal.Frame
import proofs.«129675_j14929306321143_1_alg».proof.Proof.LibSageLayers
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the tile body stores is the combine of the tiles it loaded (the in-degree tile first in the body's order). -/
theorem pay_eq (x2 : Vec Ideal S2000x1 .f32) (x1 : Vec Ideal S2000x128 .f32) (x0 : Vec Ideal S2000x128 .f32) :
    k2_pay1 (F := Ideal) x2 x1 x0 = Sage.combineRelu (M := 2000) (N := 128) x0 x1 x2 := by
  unfold k2_pay1
  simp only [shapeCast_self]
  exact Sage.combineRelu_tile x0 x1 x2 broadcasts_S2000x1_S2000x128

/-- The printed index maps over the grid: every window moves down one block per point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem lt_grid (t : Fin cfg2.N) : t.val < 50 :=
  lt_of_lt_of_eq t.isLt (show cfg2.N = 50 from N_2)

/-- The self term's block at point t, read at (p, q): row 2000·t + p of the array. -/
theorem self_read (c : Dev nD) (t : Fin cfg2.N) (p : Fin 2000) (q : Fin 128) (h : t.val * 2000 + p.val < 100000) :
    iblk2 V c 0 t (ix2 p q) = (V c main_v10 : S100000x128.Idx → EReal) (ix2 ⟨t.val * 2000 + p.val, h⟩ q) := by
  obtain ⟨e0, e1, -⟩ := idx_facts t
  unfold iblk2
  rw [View.read_apply]
  show (V c main_v10 : S100000x128.Idx → EReal) (((cfg2.win 0).blk t).view.emb (ix2 p q)) = _
  refine congrArg _ (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * q.val = q.val; rw [e1]; omega

/-- The summed neighbour terms' block at point t, read at (p, q). -/
theorem summed_read (c : Dev nD) (t : Fin cfg2.N) (p : Fin 2000) (q : Fin 128) (h : t.val * 2000 + p.val < 100000) :
    iblk2 V c 1 t (ix2 p q) = (V c main_v22 : S100000x128.Idx → EReal) (ix2 ⟨t.val * 2000 + p.val, h⟩ q) := by
  obtain ⟨-, -, e2, e3, -⟩ := idx_facts t
  unfold iblk2
  rw [View.read_apply]
  show (V c main_v22 : S100000x128.Idx → EReal) (((cfg2.win 1).blk t).view.emb (ix2 p q)) = _
  refine congrArg _ (funext fun a => Fin.ext ?_)
  match a with
  | ⟨0, _⟩ => show win2_1.index t (0 : Fin 2) * 2000 + 1 * p.val = t.val * 2000 + p.val; rw [e2]; omega
  | ⟨1, _⟩ => show win2_1.index t (1 : Fin 2) * 128 + 1 * q.val = q.val; rw [e3]; omega

/-- The in-degree column's block at point t, read at (p, 0). -/
theorem degree_read (c : Dev nD) (t : Fin cfg2.N) (p : Fin 2000) (u : Fin 1) (h : t.val * 2000 + p.val < 100000) :
    iblk2 V c 2 t (ix2 p u) = (V c main_v8 : S100000x1.Idx → EReal) (ix2 ⟨t.val * 2000 + p.val, h⟩ u) := by
  obtain ⟨-, -, -, -, e4, e5, -⟩ := idx_facts t
  unfold iblk2
  rw [View.read_apply]
  show (V c main_v8 : S100000x1.Idx → EReal) (((cfg2.win 2).blk t).view.emb (ix2 p u)) = _
  refine congrArg _ (funext fun a => Fin.ext ?_)
  match a with
  | ⟨0, _⟩ => show win2_2.index t (0 : Fin 2) * 2000 + 1 * p.val = t.val * 2000 + p.val; rw [e4]; omega
  | ⟨1, _⟩ => show win2_2.index t (1 : Fin 2) * 1 + 1 * u.val = u.val; rw [e5]; omega

/-- What point t writes back is block t of the combine of the arrays the region found. -/
theorem flushed_eq (c : Dev nD) (t : Fin cfg2.N) :
    (dat2 V c).flushed 3 t = ((cfg2.win 3).blk t).view.read (Elt Ideal)
      (Sage.combineRelu (M := 100000) (N := 128) (V c main_v10) (V c main_v22) (V c main_v8)) := by
  show (cfg2.win 3).cut (grid2.coords t) ((dat2 V c).after 3 t) = _
  rw [after2_3]
  unfold out2_3
  rw [View.canon_unit_zero hz]
  simp only [View.ld_unit_zero (S := S2000x128) hz, View.ld_unit_zero (S := S2000x1) hz]
  rw [pay_eq]
  obtain ⟨-, -, -, -, -, -, e6, e7⟩ := idx_facts t
  have ht := lt_grid t
  funext j
  obtain ⟨p, q, rfl⟩ : ∃ (p : Fin 2000) (q : Fin 128), j = ix2 p q := ⟨j 0, j 1, eq_ix2 j⟩
  have hp := p.isLt
  have hrow : t.val * 2000 + p.val < 100000 := by omega
  have hemb : ((cfg2.win 3).blk t).view.emb (ix2 p q) = (ix2 ⟨t.val * 2000 + p.val, hrow⟩ q : S100000x128.Idx) := by
    refine funext fun a => Fin.ext ?_
    match a with
    | ⟨0, _⟩ => show win2_3.index t (0 : Fin 2) * 2000 + 1 * p.val = t.val * 2000 + p.val; rw [e6]; omega
    | ⟨1, _⟩ => show win2_3.index t (1 : Fin 2) * 128 + 1 * q.val = q.val; rw [e7]; omega
  show Sage.combineRelu (M := 2000) (N := 128) (iblk2 V c 0 t) (iblk2 V c 1 t) (iblk2 V c 2 t) (ix2 p q)
    = Sage.combineRelu (M := 100000) (N := 128) (V c main_v10) (V c main_v22) (V c main_v8) (((cfg2.win 3).blk t).view.emb (ix2 p q))
  rw [hemb]
  unfold Sage.combineRelu
  rw [Sage.combine_ix2, Sage.combine_ix2, self_read V c t p q hrow, summed_read V c t p q hrow, degree_read V c t p 0 hrow]

/-- An index of the result array is in point t's block iff its row is among the block's 2000 rows. -/
theorem mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v23).slice (win2_3.rect t)).set ↔ _
  rw [View.set_slice_whole, Rect.mem_set_unit]
  exact Iff.rfl

/-- Row r of the result is written by point r / 2000. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  have hlt : (i 0).val / 2000 < cfg2.N := by rw [hN]; omega
  obtain ⟨-, -, -, -, -, -, e6, e7⟩ := idx_facts ⟨(i 0).val / 2000, hlt⟩
  refine ⟨⟨(i 0).val / 2000, hlt⟩, flush2_3 _, ?_⟩
  rw [mem_blk]
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win2_3.index ⟨(i 0).val / 2000, hlt⟩ (1 : Fin 2) * 128 ≤ (i 1).val ∧ (i 1).val < win2_3.index ⟨(i 0).val / 2000, hlt⟩ (1 : Fin 2) * 128 + 128
    rw [e7]
    omega

/-- After the region the result array is the combine of the arrays the region found. -/
theorem final (c : Dev nD) :
    (dat2 V c).arrAt 3 cfg2.N
      = Sage.combineRelu (M := 100000) (N := 128) (V c main_v10) (V c main_v22) (V c main_v8) :=
  (dat2 V c).arrAt_eq_of_cover 3 _ (fun t _ => flushed_eq V c t) cover

end Cert.KernelIdeal.Region2

end
-- ==== Proof.Region3.lean ====
/-
  Tile region 3: a dense layer tiled over 50 blocks of 2000 rows.  Each grid point loads rows
  2000·t … 2000·t + 1999 of the left operand, the whole weight matrix and the whole bias row, and writes the same rows
  of the result; the blocks tile the result array, so after the region the array is the dense layer of the three arrays
  as the region found them.
-/
import proofs.«129675_j14929306321143_1_alg».proof.Proof.Gen.KernelIdeal.Frame
import proofs.«129675_j14929306321143_1_alg».proof.Proof.LibSageLayers
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the tile body stores is the dense layer of the tiles it loaded. -/
theorem pay_eq (x0 : Vec Ideal S2000x128 .f32) (x1 : Vec Ideal S128x64 .f32) (x2 : Vec Ideal S1x64 .f32) :
    k3_pay1 (F := Ideal) x0 x1 x2 = Sage.dense (M := 2000) (K := 128) (N := 64) x0 x1 x2 := by
  unfold k3_pay1
  simp only [shapeCast_self]
  exact Sage.dense_tile dot_S2000x128_S128x64_S2000x64_1_0_0_1_n_n_wf x0 x1 x2 bitsLt_bf16_f32 broadcasts_S1x64_S2000x64

/-- The printed index maps over the grid: the row operand and the result move down one block per point, the weights and
    the bias stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt_grid (t : Fin cfg3.N) : t.val < 50 :=
  lt_of_lt_of_eq t.isLt (show cfg3.N = 50 from N_3)

/-- The row operand's block at point t, read at (p, k): row 2000·t + p of the array. -/
theorem rows_read (c : Dev nD) (t : Fin cfg3.N) (p : Fin 2000) (k : Fin 128) (h : t.val * 2000 + p.val < 100000) :
    iblk3 V c 0 t (ix2 p k) = (V c main_v23 : S100000x128.Idx → EReal) (ix2 ⟨t.val * 2000 + p.val, h⟩ k) := by
  obtain ⟨e0, e1, -⟩ := idx_facts t
  unfold iblk3
  rw [View.read_apply]
  show (V c main_v23 : S100000x128.Idx → EReal) (((cfg3.win 0).blk t).view.emb (ix2 p k)) = _
  refine congrArg _ (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 128 + 1 * k.val = k.val; rw [e1]; omega

/-- The weights' block at any point is the whole matrix. -/
theorem weights_read (c : Dev nD) (t : Fin cfg3.N) (k : Fin 128) (q : Fin 64) :
    iblk3 V c 1 t (ix2 k q) = (V c main_arg6 : S128x64.Idx → EReal) (ix2 k q) := by
  obtain ⟨-, -, e2, e3, -⟩ := idx_facts t
  unfold iblk3
  rw [View.read_apply]
  show (V c main_arg6 : S128x64.Idx → EReal) (((cfg3.win 1).blk t).view.emb (ix2 k q)) = _
  refine congrArg _ (funext fun a => Fin.ext ?_)
  match a with
  | ⟨0, _⟩ => show win3_1.index t (0 : Fin 2) * 128 + 1 * k.val = k.val; rw [e2]; omega
  | ⟨1, _⟩ => show win3_1.index t (1 : Fin 2) * 64 + 1 * q.val = q.val; rw [e3]; omega

/-- The bias row's block at any point is the whole row. -/
theorem bias_read (c : Dev nD) (t : Fin cfg3.N) (u : Fin 1) (q : Fin 64) :
    iblk3 V c 2 t (ix2 u q) = (V c main_v24 : S1x64.Idx → EReal) (ix2 u q) := by
  obtain ⟨-, -, -, -, e4, e5, -⟩ := idx_facts t
  unfold iblk3
  rw [View.read_apply]
  show (V c main_v24 : S1x64.Idx → EReal) (((cfg3.win 2).blk t).view.emb (ix2 u q)) = _
  refine congrArg _ (funext fun a => Fin.ext ?_)
  match a with
  | ⟨0, _⟩ => show win3_2.index t (0 : Fin 2) * 1 + 1 * u.val = u.val; rw [e4]; omega
  | ⟨1, _⟩ => show win3_2.index t (1 : Fin 2) * 64 + 1 * q.val = q.val; rw [e5]; omega

/-- What point t writes back is block t of the dense layer of the arrays the region found. -/
theorem flushed_eq (c : Dev nD) (t : Fin cfg3.N) :
    (dat3 V c).flushed 3 t = ((cfg3.win 3).blk t).view.read (Elt Ideal)
      (Sage.dense (M := 100000) (K := 128) (N := 64) (V c main_v23) (V c main_arg6) (V c main_v24)) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x64) hz, View.ld_unit_zero (S := S1x64) hz]
  rw [pay_eq]
  obtain ⟨-, -, -, -, -, -, e6, e7⟩ := idx_facts t
  have ht := lt_grid t
  funext j
  obtain ⟨p, q, rfl⟩ : ∃ (p : Fin 2000) (q : Fin 64), j = ix2 p q := ⟨j 0, j 1, eq_ix2 j⟩
  have hp := p.isLt
  have hrow : t.val * 2000 + p.val < 100000 := by omega
  have hemb : ((cfg3.win 3).blk t).view.emb (ix2 p q) = (ix2 ⟨t.val * 2000 + p.val, hrow⟩ q : S100000x64.Idx) := by
    refine funext fun a => Fin.ext ?_
    match a with
    | ⟨0, _⟩ => show win3_3.index t (0 : Fin 2) * 2000 + 1 * p.val = t.val * 2000 + p.val; rw [e6]; omega
    | ⟨1, _⟩ => show win3_3.index t (1 : Fin 2) * 64 + 1 * q.val = q.val; rw [e7]; omega
  show Sage.dense (M := 2000) (K := 128) (N := 64) (iblk3 V c 0 t) (iblk3 V c 1 t) (iblk3 V c 2 t) (ix2 p q)
    = Sage.dense (M := 100000) (K := 128) (N := 64) (V c main_v23) (V c main_arg6) (V c main_v24) (((cfg3.win 3).blk t).view.emb (ix2 p q))
  rw [hemb, Sage.dense_ix2, Sage.dense_ix2, bias_read V c t]
  refine congrArg (· + _) (Finset.sum_congr rfl fun k _ => ?_)
  rw [rows_read V c t p k hrow, weights_read V c t k q]

/-- An index of the result array is in point t's block iff its row is among the block's 2000 rows. -/
theorem mem_blk (t : Fin cfg3.N) (i : S100000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v25).slice (win3_3.rect t)).set ↔ _
  rw [View.set_slice_whole, Rect.mem_set_unit]
  exact Iff.rfl

/-- Row r of the result is written by point r / 2000. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 50 := N_3
  have hlt : (i 0).val / 2000 < cfg3.N := by rw [hN]; omega
  obtain ⟨-, -, -, -, -, -, e6, e7⟩ := idx_facts ⟨(i 0).val / 2000, hlt⟩
  refine ⟨⟨(i 0).val / 2000, hlt⟩, flush3_3 _, ?_⟩
  rw [mem_blk]
  intro a
  match a with
  | ⟨0, _⟩ =>
    show win3_3.index ⟨(i 0).val / 2000, hlt⟩ (0 : Fin 2) * 2000 ≤ (i 0).val ∧ (i 0).val < win3_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win3_3.index ⟨(i 0).val / 2000, hlt⟩ (1 : Fin 2) * 64 ≤ (i 1).val ∧ (i 1).val < win3_3.index ⟨(i 0).val / 2000, hlt⟩ (1 : Fin 2) * 64 + 64
    rw [e7]
    omega

/-- After the region the result array is the dense layer of the arrays the region found. -/
theorem final (c : Dev nD) :
    (dat3 V c).arrAt 3 cfg3.N
      = Sage.dense (M := 100000) (K := 128) (N := 64) (V c main_v23) (V c main_arg6) (V c main_v24) :=
  (dat3 V c).arrAt_eq_of_cover 3 _ (fun t _ => flushed_eq V c t) cover

end Cert.KernelIdeal.Region3

end
-- ==== Proof.Region4.lean ====
/-
  Tile region 4: a dense layer tiled over 300 blocks of 2000 rows.  Each grid point loads rows
  2000·t … 2000·t + 1999 of the left operand, the whole weight matrix and the whole bias row, and writes the same rows
  of the result; the blocks tile the result array, so after the region the array is the dense layer of the three arrays
  as the region found them.
-/
import proofs.«129675_j14929306321143_1_alg».proof.Proof.Gen.KernelIdeal.Frame
import proofs.«129675_j14929306321143_1_alg».proof.Proof.LibSageLayers
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the tile body stores is the dense layer of the tiles it loaded. -/
theorem pay_eq (x0 : Vec Ideal S2000x128 .f32) (x1 : Vec Ideal S128x64 .f32) (x2 : Vec Ideal S1x64 .f32) :
    k4_pay1 (F := Ideal) x0 x1 x2 = Sage.dense (M := 2000) (K := 128) (N := 64) x0 x1 x2 := by
  unfold k4_pay1
  simp only [shapeCast_self]
  exact Sage.dense_tile dot_S2000x128_S128x64_S2000x64_1_0_0_1_n_n_wf x0 x1 x2 bitsLt_bf16_f32 broadcasts_S1x64_S2000x64

/-- The printed index maps over the grid: the row operand and the result move down one block per point, the weights and
    the bias stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem lt_grid (t : Fin cfg4.N) : t.val < 300 :=
  lt_of_lt_of_eq t.isLt (show cfg4.N = 300 from N_4)

/-- The row operand's block at point t, read at (p, k): row 2000·t + p of the array. -/
theorem rows_read (c : Dev nD) (t : Fin cfg4.N) (p : Fin 2000) (k : Fin 128) (h : t.val * 2000 + p.val < 600000) :
    iblk4 V c 0 t (ix2 p k) = (V c main_v32 : S600000x128.Idx → EReal) (ix2 ⟨t.val * 2000 + p.val, h⟩ k) := by
  obtain ⟨e0, e1, -⟩ := idx_facts t
  unfold iblk4
  rw [View.read_apply]
  show (V c main_v32 : S600000x128.Idx → EReal) (((cfg4.win 0).blk t).view.emb (ix2 p k)) = _
  refine congrArg _ (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 128 + 1 * k.val = k.val; rw [e1]; omega

/-- The weights' block at any point is the whole matrix. -/
theorem weights_read (c : Dev nD) (t : Fin cfg4.N) (k : Fin 128) (q : Fin 64) :
    iblk4 V c 1 t (ix2 k q) = (V c main_arg8 : S128x64.Idx → EReal) (ix2 k q) := by
  obtain ⟨-, -, e2, e3, -⟩ := idx_facts t
  unfold iblk4
  rw [View.read_apply]
  show (V c main_arg8 : S128x64.Idx → EReal) (((cfg4.win 1).blk t).view.emb (ix2 k q)) = _
  refine congrArg _ (funext fun a => Fin.ext ?_)
  match a with
  | ⟨0, _⟩ => show win4_1.index t (0 : Fin 2) * 128 + 1 * k.val = k.val; rw [e2]; omega
  | ⟨1, _⟩ => show win4_1.index t (1 : Fin 2) * 64 + 1 * q.val = q.val; rw [e3]; omega

/-- The bias row's block at any point is the whole row. -/
theorem bias_read (c : Dev nD) (t : Fin cfg4.N) (u : Fin 1) (q : Fin 64) :
    iblk4 V c 2 t (ix2 u q) = (V c main_v33 : S1x64.Idx → EReal) (ix2 u q) := by
  obtain ⟨-, -, -, -, e4, e5, -⟩ := idx_facts t
  unfold iblk4
  rw [View.read_apply]
  show (V c main_v33 : S1x64.Idx → EReal) (((cfg4.win 2).blk t).view.emb (ix2 u q)) = _
  refine congrArg _ (funext fun a => Fin.ext ?_)
  match a with
  | ⟨0, _⟩ => show win4_2.index t (0 : Fin 2) * 1 + 1 * u.val = u.val; rw [e4]; omega
  | ⟨1, _⟩ => show win4_2.index t (1 : Fin 2) * 64 + 1 * q.val = q.val; rw [e5]; omega

/-- What point t writes back is block t of the dense layer of the arrays the region found. -/
theorem flushed_eq (c : Dev nD) (t : Fin cfg4.N) :
    (dat4 V c).flushed 3 t = ((cfg4.win 3).blk t).view.read (Elt Ideal)
      (Sage.dense (M := 600000) (K := 128) (N := 64) (V c main_v32) (V c main_arg8) (V c main_v33)) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x64) hz, View.ld_unit_zero (S := S1x64) hz]
  rw [pay_eq]
  obtain ⟨-, -, -, -, -, -, e6, e7⟩ := idx_facts t
  have ht := lt_grid t
  funext j
  obtain ⟨p, q, rfl⟩ : ∃ (p : Fin 2000) (q : Fin 64), j = ix2 p q := ⟨j 0, j 1, eq_ix2 j⟩
  have hp := p.isLt
  have hrow : t.val * 2000 + p.val < 600000 := by omega
  have hemb : ((cfg4.win 3).blk t).view.emb (ix2 p q) = (ix2 ⟨t.val * 2000 + p.val, hrow⟩ q : S600000x64.Idx) := by
    refine funext fun a => Fin.ext ?_
    match a with
    | ⟨0, _⟩ => show win4_3.index t (0 : Fin 2) * 2000 + 1 * p.val = t.val * 2000 + p.val; rw [e6]; omega
    | ⟨1, _⟩ => show win4_3.index t (1 : Fin 2) * 64 + 1 * q.val = q.val; rw [e7]; omega
  show Sage.dense (M := 2000) (K := 128) (N := 64) (iblk4 V c 0 t) (iblk4 V c 1 t) (iblk4 V c 2 t) (ix2 p q)
    = Sage.dense (M := 600000) (K := 128) (N := 64) (V c main_v32) (V c main_arg8) (V c main_v33) (((cfg4.win 3).blk t).view.emb (ix2 p q))
  rw [hemb, Sage.dense_ix2, Sage.dense_ix2, bias_read V c t]
  refine congrArg (· + _) (Finset.sum_congr rfl fun k _ => ?_)
  rw [rows_read V c t p k hrow, weights_read V c t k q]

/-- An index of the result array is in point t's block iff its row is among the block's 2000 rows. -/
theorem mem_blk (t : Fin cfg4.N) (i : S600000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v34).slice (win4_3.rect t)).set ↔ _
  rw [View.set_slice_whole, Rect.mem_set_unit]
  exact Iff.rfl

/-- Row r of the result is written by point r / 2000. -/
theorem cover (i : S600000x64.Idx) : ∃ t : Fin cfg4.N, (cfg4.win 3).flush t = true ∧ i ∈ ((cfg4.win 3).blk t).view.set := by
  have hi0 : (i 0).val < 600000 := (i 0).isLt
  have hi1 : (i 1).val < 64 := (i 1).isLt
  have hN : cfg4.N = 300 := N_4
  have hlt : (i 0).val / 2000 < cfg4.N := by rw [hN]; omega
  obtain ⟨-, -, -, -, -, -, e6, e7⟩ := idx_facts ⟨(i 0).val / 2000, hlt⟩
  refine ⟨⟨(i 0).val / 2000, hlt⟩, flush4_3 _, ?_⟩
  rw [mem_blk]
  intro a
  match a with
  | ⟨0, _⟩ =>
    show win4_3.index ⟨(i 0).val / 2000, hlt⟩ (0 : Fin 2) * 2000 ≤ (i 0).val ∧ (i 0).val < win4_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win4_3.index ⟨(i 0).val / 2000, hlt⟩ (1 : Fin 2) * 64 ≤ (i 1).val ∧ (i 1).val < win4_3.index ⟨(i 0).val / 2000, hlt⟩ (1 : Fin 2) * 64 + 64
    rw [e7]
    omega

/-- After the region the result array is the dense layer of the arrays the region found. -/
theorem final (c : Dev nD) :
    (dat4 V c).arrAt 3 cfg4.N
      = Sage.dense (M := 600000) (K := 128) (N := 64) (V c main_v32) (V c main_arg8) (V c main_v33) :=
  (dat4 V c).arrAt_eq_of_cover 3 _ (fun t _ => flushed_eq V c t) cover

end Cert.KernelIdeal.Region4

end
-- ==== Proof.Region5.lean ====
/-
  Tile region 5: the self term plus the neighbour mean tiled over 50 blocks of 2000 rows.
  Each grid point loads rows 2000·t … 2000·t + 1999 of the self term, of the summed neighbour terms and of the in-degree
  column, and writes the same rows of the result; the blocks tile the result array, so after the region the array is the
  whole-array combine of the three arrays as the region found them.
-/
import proofs.«129675_j14929306321143_1_alg».proof.Proof.Gen.KernelIdeal.Frame
import proofs.«129675_j14929306321143_1_alg».proof.Proof.LibSageLayers
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the tile body stores is the combine of the tiles it loaded (the in-degree tile first in the body's order). -/
theorem pay_eq (x2 : Vec Ideal S2000x1 .f32) (x1 : Vec Ideal S2000x64 .f32) (x0 : Vec Ideal S2000x64 .f32) :
    k5_pay1 (F := Ideal) x2 x1 x0 = Sage.combine (M := 2000) (N := 64) x0 x1 x2 := by
  unfold k5_pay1
  simp only [shapeCast_self]
  exact Sage.combine_tile x0 x1 x2 broadcasts_S2000x1_S2000x64

/-- The printed index maps over the grid: every window moves down one block per point. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

theorem lt_grid (t : Fin cfg5.N) : t.val < 50 :=
  lt_of_lt_of_eq t.isLt (show cfg5.N = 50 from N_5)

/-- The self term's block at point t, read at (p, q): row 2000·t + p of the array. -/
theorem self_read (c : Dev nD) (t : Fin cfg5.N) (p : Fin 2000) (q : Fin 64) (h : t.val * 2000 + p.val < 100000) :
    iblk5 V c 0 t (ix2 p q) = (V c main_v25 : S100000x64.Idx → EReal) (ix2 ⟨t.val * 2000 + p.val, h⟩ q) := by
  obtain ⟨e0, e1, -⟩ := idx_facts t
  unfold iblk5
  rw [View.read_apply]
  show (V c main_v25 : S100000x64.Idx → EReal) (((cfg5.win 0).blk t).view.emb (ix2 p q)) = _
  refine congrArg _ (funext fun a => Fin.ext ?_)
  match a with
  | ⟨0, _⟩ => show win5_0.index t (0 : Fin 2) * 2000 + 1 * p.val = t.val * 2000 + p.val; rw [e0]; omega
  | ⟨1, _⟩ => show win5_0.index t (1 : Fin 2) * 64 + 1 * q.val = q.val; rw [e1]; omega

/-- The summed neighbour terms' block at point t, read at (p, q). -/
theorem summed_read (c : Dev nD) (t : Fin cfg5.N) (p : Fin 2000) (q : Fin 64) (h : t.val * 2000 + p.val < 100000) :
    iblk5 V c 1 t (ix2 p q) = (V c main_v37 : S100000x64.Idx → EReal) (ix2 ⟨t.val * 2000 + p.val, h⟩ q) := by
  obtain ⟨-, -, e2, e3, -⟩ := idx_facts t
  unfold iblk5
  rw [View.read_apply]
  show (V c main_v37 : S100000x64.Idx → EReal) (((cfg5.win 1).blk t).view.emb (ix2 p q)) = _
  refine congrArg _ (funext fun a => Fin.ext ?_)
  match a with
  | ⟨0, _⟩ => show win5_1.index t (0 : Fin 2) * 2000 + 1 * p.val = t.val * 2000 + p.val; rw [e2]; omega
  | ⟨1, _⟩ => show win5_1.index t (1 : Fin 2) * 64 + 1 * q.val = q.val; rw [e3]; omega

/-- The in-degree column's block at point t, read at (p, 0). -/
theorem degree_read (c : Dev nD) (t : Fin cfg5.N) (p : Fin 2000) (u : Fin 1) (h : t.val * 2000 + p.val < 100000) :
    iblk5 V c 2 t (ix2 p u) = (V c main_v8 : S100000x1.Idx → EReal) (ix2 ⟨t.val * 2000 + p.val, h⟩ u) := by
  obtain ⟨-, -, -, -, e4, e5, -⟩ := idx_facts t
  unfold iblk5
  rw [View.read_apply]
  show (V c main_v8 : S100000x1.Idx → EReal) (((cfg5.win 2).blk t).view.emb (ix2 p u)) = _
  refine congrArg _ (funext fun a => Fin.ext ?_)
  match a with
  | ⟨0, _⟩ => show win5_2.index t (0 : Fin 2) * 2000 + 1 * p.val = t.val * 2000 + p.val; rw [e4]; omega
  | ⟨1, _⟩ => show win5_2.index t (1 : Fin 2) * 1 + 1 * u.val = u.val; rw [e5]; omega

/-- What point t writes back is block t of the combine of the arrays the region found. -/
theorem flushed_eq (c : Dev nD) (t : Fin cfg5.N) :
    (dat5 V c).flushed 3 t = ((cfg5.win 3).blk t).view.read (Elt Ideal)
      (Sage.combine (M := 100000) (N := 64) (V c main_v25) (V c main_v37) (V c main_v8)) := by
  show (cfg5.win 3).cut (grid5.coords t) ((dat5 V c).after 3 t) = _
  rw [after5_3]
  unfold out5_3
  rw [View.canon_unit_zero hz]
  simp only [View.ld_unit_zero (S := S2000x64) hz, View.ld_unit_zero (S := S2000x1) hz]
  rw [pay_eq]
  obtain ⟨-, -, -, -, -, -, e6, e7⟩ := idx_facts t
  have ht := lt_grid t
  funext j
  obtain ⟨p, q, rfl⟩ : ∃ (p : Fin 2000) (q : Fin 64), j = ix2 p q := ⟨j 0, j 1, eq_ix2 j⟩
  have hp := p.isLt
  have hrow : t.val * 2000 + p.val < 100000 := by omega
  have hemb : ((cfg5.win 3).blk t).view.emb (ix2 p q) = (ix2 ⟨t.val * 2000 + p.val, hrow⟩ q : S100000x64.Idx) := by
    refine funext fun a => Fin.ext ?_
    match a with
    | ⟨0, _⟩ => show win5_3.index t (0 : Fin 2) * 2000 + 1 * p.val = t.val * 2000 + p.val; rw [e6]; omega
    | ⟨1, _⟩ => show win5_3.index t (1 : Fin 2) * 64 + 1 * q.val = q.val; rw [e7]; omega
  show Sage.combine (M := 2000) (N := 64) (iblk5 V c 0 t) (iblk5 V c 1 t) (iblk5 V c 2 t) (ix2 p q)
    = Sage.combine (M := 100000) (N := 64) (V c main_v25) (V c main_v37) (V c main_v8) (((cfg5.win 3).blk t).view.emb (ix2 p q))
  rw [hemb]
  rw [Sage.combine_ix2, Sage.combine_ix2, self_read V c t p q hrow, summed_read V c t p q hrow, degree_read V c t p 0 hrow]

/-- An index of the result array is in point t's block iff its row is among the block's 2000 rows. -/
theorem mem_blk (t : Fin cfg5.N) (i : S100000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v38).slice (win5_3.rect t)).set ↔ _
  rw [View.set_slice_whole, Rect.mem_set_unit]
  exact Iff.rfl

/-- Row r of the result is written by point r / 2000. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 50 := N_5
  have hlt : (i 0).val / 2000 < cfg5.N := by rw [hN]; omega
  obtain ⟨-, -, -, -, -, -, e6, e7⟩ := idx_facts ⟨(i 0).val / 2000, hlt⟩
  refine ⟨⟨(i 0).val / 2000, hlt⟩, flush5_3 _, ?_⟩
  rw [mem_blk]
  intro a
  match a with
  | ⟨0, _⟩ =>
    show win5_3.index ⟨(i 0).val / 2000, hlt⟩ (0 : Fin 2) * 2000 ≤ (i 0).val ∧ (i 0).val < win5_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win5_3.index ⟨(i 0).val / 2000, hlt⟩ (1 : Fin 2) * 64 ≤ (i 1).val ∧ (i 1).val < win5_3.index ⟨(i 0).val / 2000, hlt⟩ (1 : Fin 2) * 64 + 64
    rw [e7]
    omega

/-- After the region the result array is the combine of the arrays the region found. -/
theorem final (c : Dev nD) :
    (dat5 V c).arrAt 3 cfg5.N
      = Sage.combine (M := 100000) (N := 64) (V c main_v25) (V c main_v37) (V c main_v8) :=
  (dat5 V c).arrAt_eq_of_cover 3 _ (fun t _ => flushed_eq V c t) cover

end Cert.KernelIdeal.Region5

end
-- ==== Proof.KernelValue.lean ====
/-
  The idealized tile program's result array as one function of the ten argument arrays.

  The program alternates stretches of host operations (slicing the edge list, counting in-degrees, gathering neighbour rows,
  summing neighbour terms per destination node) with six tiled regions (four dense layers, two combines).  Reading the
  contents of the buffers segment by segment from the launch memory: a buffer that a segment does not write keeps what it
  held; a host operation's result is its function of its operands' contents; a region's result array is the whole-array
  layer of the arrays the region found (the per-region modules).  Composed, the result is the two-layer network
  `net` below: each layer is  self-term + (sum of neighbour terms per destination) / max(in-degree, 1),  with the positive
  part taken after the first layer.
-/
import proofs.«129675_j14929306321143_1_alg».proof.Proof.Gen.KernelIdeal.Frame
import proofs.«129675_j14929306321143_1_alg».proof.Proof.LibSageLayers
import proofs.«129675_j14929306321143_1_alg».proof.Proof.Region0
import proofs.«129675_j14929306321143_1_alg».proof.Proof.Region1
import proofs.«129675_j14929306321143_1_alg».proof.Proof.Region2
import proofs.«129675_j14929306321143_1_alg».proof.Proof.Region3
import proofs.«129675_j14929306321143_1_alg».proof.Proof.Region4
import proofs.«129675_j14929306321143_1_alg».proof.Proof.Region5
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo
open Idealize.ShloMosaic.Pipeline (Dat)

/-! ## The network as a function of the arrays -/

/-- The edges' source nodes: row 0 of the edge list. -/
def srcOf (e : IVec S2x600000 32) : IVec S600000 32 :=
  shapeCast S600000 (extractStridedSlice S1x600000 ![0, 0] e slices_S2x600000_S1x600000_0_0) shapeCasts_S1x600000_S600000
/-- The edges' destination nodes: row 1 of the edge list. -/
def dstOf (e : IVec S2x600000 32) : IVec S600000 32 :=
  shapeCast S600000 (extractStridedSlice S1x600000 ![1, 0] e slices_S2x600000_S1x600000_1_0) shapeCasts_S1x600000_S600000
/-- The source nodes as the gather takes them: a negative index wrapped by the node count, laid out as a column. -/
def gatherIdx (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)
/-- The rows of `x` at the edges' source nodes. -/
def neighbours (x : FVec Ideal S100000x128 .f32) (s : IVec S600000 32) : FVec Ideal S600000x128 .f32 :=
  Host.gather gather_S100000x128_S600000x1_S600000x128_1_0_n_n_0_1_1128 x (gatherIdx s)
/-- The destination nodes laid out as a column. -/
def scatterIdx (d : IVec S600000 32) : IVec S600000x1 32 := broadcastInDim S600000x1 ![0] bcast_S600000_S600000x1_0 d
/-- Per destination node, the sum of the edge rows `u` (128 columns). -/
def segSum128 (d : IVec S600000 32) (u : FVec Ideal S600000x128 .f32) : FVec Ideal S100000x128 .f32 :=
  Host.scatterAdd scatter_S100000x128_S600000x1_S600000x128_1_0_0_1
    (broadcastInDim S100000x128 ![] bcast_S_S100000x128 (constant (F := Ideal) S_ .f32 0x00000000#32)) (scatterIdx d) u
/-- Per destination node, the sum of the edge rows `u` (64 columns). -/
def segSum64 (d : IVec S600000 32) (u : FVec Ideal S600000x64 .f32) : FVec Ideal S100000x64 .f32 :=
  Host.scatterAdd scatter_S100000x64_S600000x1_S600000x64_1_0_0_1
    (broadcastInDim S100000x64 ![] bcast_S_S100000x64 (constant (F := Ideal) S_ .f32 0x00000000#32)) (scatterIdx d) u
/-- The in-degree of every node: ones summed per destination node. -/
def degree (d : IVec S600000 32) : FVec Ideal S100000 .f32 :=
  Host.scatterAdd scatter_S100000_S600000x1_S600000_n_0_0_1
    (broadcastInDim S100000 ![] bcast_S_S100000 (constant (F := Ideal) S_ .f32 0x00000000#32)) (scatterIdx d)
    (broadcastInDim S600000 ![] bcast_S_S600000 (constant (F := Ideal) S_ .f32 0x3F800000#32))
/-- The in-degree as a column. -/
def degreeCol (d : IVec S600000 32) : FVec Ideal S100000x1 .f32 := shapeCast S100000x1 (degree d) shapeCasts_S100000_S100000x1

/-- The first layer's self term. -/
def self1 (x : FVec Ideal S100000x128 .f32) (w : FVec Ideal S128x128 .f32) (b : FVec Ideal S128 .f32) : FVec Ideal S100000x128 .f32 :=
  Sage.dense (M := 100000) (K := 128) (N := 128) x w (shapeCast S1x128 b shapeCasts_S128_S1x128)
/-- The first layer's neighbour terms, one row per edge. -/
def edge1 (x : FVec Ideal S100000x128 .f32) (w : FVec Ideal S128x128 .f32) (b : FVec Ideal S128 .f32) (s : IVec S600000 32) :
    FVec Ideal S600000x128 .f32 :=
  Sage.dense (M := 600000) (K := 128) (N := 128) (neighbours x s) w (shapeCast S1x128 b shapeCasts_S128_S1x128)
/-- The hidden features: the first layer with its positive part. -/
def hidden (x : FVec Ideal S100000x128 .f32) (w1 : FVec Ideal S128x128 .f32) (b1 : FVec Ideal S128 .f32)
    (w2 : FVec Ideal S128x128 .f32) (b2 : FVec Ideal S128 .f32) (e : IVec S2x600000 32) : FVec Ideal S100000x128 .f32 :=
  Sage.combineRelu (M := 100000) (N := 128) (self1 x w1 b1) (segSum128 (dstOf e) (edge1 x w2 b2 (srcOf e))) (degreeCol (dstOf e))
/-- The second layer's self term. -/
def self2 (h : FVec Ideal S100000x128 .f32) (w : FVec Ideal S128x64 .f32) (b : FVec Ideal S64 .f32) : FVec Ideal S100000x64 .f32 :=
  Sage.dense (M := 100000) (K := 128) (N := 64) h w (shapeCast S1x64 b shapeCasts_S64_S1x64)
/-- The second layer's neighbour terms, one row per edge. -/
def edge2 (h : FVec Ideal S100000x128 .f32) (w : FVec Ideal S128x64 .f32) (b : FVec Ideal S64 .f32) (s : IVec S600000 32) :
    FVec Ideal S600000x64 .f32 :=
  Sage.dense (M := 600000) (K := 128) (N := 64) (neighbours h s) w (shapeCast S1x64 b shapeCasts_S64_S1x64)
/-- The network's output: the second layer over the hidden features. -/
def net (x : FVec Ideal S100000x128 .f32) (e : IVec S2x600000 32) (w1 : FVec Ideal S128x128 .f32) (b1 : FVec Ideal S128 .f32)
    (w2 : FVec Ideal S128x128 .f32) (b2 : FVec Ideal S128 .f32) (w3 : FVec Ideal S128x64 .f32) (b3 : FVec Ideal S64 .f32)
    (w4 : FVec Ideal S128x64 .f32) (b4 : FVec Ideal S64 .f32) : FVec Ideal S100000x64 .f32 :=
  Sage.combine (M := 100000) (N := 64) (self2 (hidden x w1 b1 w2 b2 e) w3 b3)
    (segSum64 (dstOf e) (edge2 (hidden x w1 b1 w2 b2 e) w4 b4 (srcOf e))) (degreeCol (dstOf e))

/-! ## The buffers' contents, segment by segment -/

variable (m : (ℓ : Loc nD τ sig) → Buf (Elt Ideal) ℓ) (ρ : Dev nD → PrngReg) (c : Dev nD)

/-- A buffer none of a stretch's host operations writes holds after the stretch what it held before. -/
macro "host_keeps" : tactic =>
  `(tactic| (
    refine StableHlo.after_of_forall_not_mem _ _ (List.forall_iff_forall_mem.mp ?_)
    simp only [hostOps0, hostOps1, hostOps2, hostOps3, hostOps4, hostOps5, List.Forall, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ### After the first stretch: the edge list split, the in-degrees, the first bias as a row -/

/-- The features are as launched when the first region starts. -/
theorem arg0_at1 : W1 m ρ c (Proc.devRef .tc main_arg0) = m ((c : Thread nD τ).loc main_arg0) :=
  calc W1 m ρ c (Proc.devRef .tc main_arg0)
    _ = W0 m ρ c (Proc.devRef .tc main_arg0) := by host_keeps
    _ = m ((c : Thread nD τ).loc main_arg0) := rfl

/-- So are the first self weights. -/
theorem arg2_at1 : W1 m ρ c (Proc.devRef .tc main_arg2) = m ((c : Thread nD τ).loc main_arg2) :=
  calc W1 m ρ c (Proc.devRef .tc main_arg2)
    _ = W0 m ρ c (Proc.devRef .tc main_arg2) := by host_keeps
    _ = m ((c : Thread nD τ).loc main_arg2) := rfl

theorem src_at1 : W1 m ρ c (Proc.devRef .tc main_v1) = srcOf (m ((c : Thread nD τ).loc main_arg1)) := by
  show StableHlo.after hostOps0 (W0 m ρ c) (Proc.devRef .tc main_v1) = _
  dsimp only [hostOps0]
  after_results
  rfl
theorem dst_at1 : W1 m ρ c (Proc.devRef .tc main_v3) = dstOf (m ((c : Thread nD τ).loc main_arg1)) := by
  show StableHlo.after hostOps0 (W0 m ρ c) (Proc.devRef .tc main_v3) = _
  dsimp only [hostOps0]
  after_results
  rfl
theorem deg_at1 : W1 m ρ c (Proc.devRef .tc main_v8) = degreeCol (dstOf (m ((c : Thread nD τ).loc main_arg1))) := by
  show StableHlo.after hostOps0 (W0 m ρ c) (Proc.devRef .tc main_v8) = _
  dsimp only [hostOps0]
  after_results
  rfl
theorem bias1_at1 : W1 m ρ c (Proc.devRef .tc main_v9) = shapeCast S1x128 (m ((c : Thread nD τ).loc main_arg3)) shapeCasts_S128_S1x128 := by
  show StableHlo.after hostOps0 (W0 m ρ c) (Proc.devRef .tc main_v9) = _
  dsimp only [hostOps0]
  after_results
  rfl

/-! ### Region 0: the first self term -/

theorem self1_at2 : W2 m ρ c (Proc.devRef .tc main_v10) = self1 (m ((c : Thread nD τ).loc main_arg0)) (m ((c : Thread nD τ).loc main_arg2)) (m ((c : Thread nD τ).loc main_arg3)) := by
  refine (W2_arr m ρ c 3).trans ((Region0.final (V1 m ρ) c).trans ?_)
  rw [show V1 m ρ c main_arg0 = (m ((c : Thread nD τ).loc main_arg0)) from arg0_at1 m ρ c, show V1 m ρ c main_arg2 = (m ((c : Thread nD τ).loc main_arg2)) from arg2_at1 m ρ c,
    show V1 m ρ c main_v9 = _ from bias1_at1 m ρ c]
  rfl

/-! ### The second stretch: the neighbour rows gathered, the second bias as a row -/

/-- The features are still as launched after region 0 (which only reads them). -/
theorem arg0_at2 : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by host_keeps
    _ = m ((c : Thread nD τ).loc main_arg0) := rfl

/-- The source nodes are untouched by region 0. -/
theorem src_at2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- The first neighbour bias is as launched. -/
theorem arg5_at2 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_keeps
    _ = m ((c : Thread nD τ).loc main_arg5) := rfl

/-- The first neighbour weights are as launched when region 1 starts. -/
theorem arg4_at3 : W3 m ρ c (Proc.devRef .tc main_arg4) = m ((c : Thread nD τ).loc main_arg4) :=
  calc W3 m ρ c (Proc.devRef .tc main_arg4)
    _ = W2 m ρ c (Proc.devRef .tc main_arg4) := by host_keeps
    _ = W1 m ρ c (Proc.devRef .tc main_arg4) := W2_of_ne m ρ c main_arg4 (by decide)
    _ = W0 m ρ c (Proc.devRef .tc main_arg4) := by host_keeps
    _ = m ((c : Thread nD τ).loc main_arg4) := rfl

theorem nbr1_at3 : W3 m ρ c (Proc.devRef .tc main_v17) = neighbours (m ((c : Thread nD τ).loc main_arg0)) (srcOf (m ((c : Thread nD τ).loc main_arg1))) := by
  show StableHlo.after hostOps1 (W2 m ρ c) (Proc.devRef .tc main_v17) = _
  dsimp only [hostOps1]
  after_results
  rw [arg0_at2 m ρ c, src_at2 m ρ c, src_at1 m ρ c]
  rfl
theorem bias2_at3 : W3 m ρ c (Proc.devRef .tc main_v18) = shapeCast S1x128 (m ((c : Thread nD τ).loc main_arg5)) shapeCasts_S128_S1x128 := by
  show StableHlo.after hostOps1 (W2 m ρ c) (Proc.devRef .tc main_v18) = _
  dsimp only [hostOps1]
  after_results
  rw [arg5_at2 m ρ c]
  rfl

/-! ### Region 1: the first neighbour terms -/

theorem edge1_at4 : W4 m ρ c (Proc.devRef .tc main_v19) = edge1 (m ((c : Thread nD τ).loc main_arg0)) (m ((c : Thread nD τ).loc main_arg4)) (m ((c : Thread nD τ).loc main_arg5)) (srcOf (m ((c : Thread nD τ).loc main_arg1))) := by
  refine (W4_arr m ρ c 3).trans ((Region1.final (V3 m ρ) c).trans ?_)
  rw [show V3 m ρ c main_v17 = _ from nbr1_at3 m ρ c, show V3 m ρ c main_arg4 = (m ((c : Thread nD τ).loc main_arg4)) from arg4_at3 m ρ c,
    show V3 m ρ c main_v18 = _ from bias2_at3 m ρ c]
  rfl

/-! ### The third stretch: the neighbour terms summed per destination node -/

/-- The destination nodes are untouched so far. -/
theorem dst_at4 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keeps
    _ = W1 m ρ c (Proc.devRef .tc main_v3) := W2_of_ne m ρ c main_v3 (by decide)

/-- The first self term is untouched since region 0. -/
theorem self1_at5 : W5 m ρ c (Proc.devRef .tc main_v10) = W2 m ρ c (Proc.devRef .tc main_v10) :=
  calc W5 m ρ c (Proc.devRef .tc main_v10)
    _ = W4 m ρ c (Proc.devRef .tc main_v10) := by host_keeps
    _ = W3 m ρ c (Proc.devRef .tc main_v10) := W4_of_ne m ρ c main_v10 (by decide)
    _ = W2 m ρ c (Proc.devRef .tc main_v10) := by host_keeps

/-- The in-degrees are untouched so far. -/
theorem deg_at5 : W5 m ρ c (Proc.devRef .tc main_v8) = W1 m ρ c (Proc.devRef .tc main_v8) :=
  calc W5 m ρ c (Proc.devRef .tc main_v8)
    _ = W4 m ρ c (Proc.devRef .tc main_v8) := by host_keeps
    _ = W3 m ρ c (Proc.devRef .tc main_v8) := W4_of_ne m ρ c main_v8 (by decide)
    _ = W2 m ρ c (Proc.devRef .tc main_v8) := by host_keeps
    _ = W1 m ρ c (Proc.devRef .tc main_v8) := W2_of_ne m ρ c main_v8 (by decide)

theorem sum1_at5 : W5 m ρ c (Proc.devRef .tc main_v22) = segSum128 (dstOf (m ((c : Thread nD τ).loc main_arg1))) (edge1 (m ((c : Thread nD τ).loc main_arg0)) (m ((c : Thread nD τ).loc main_arg4)) (m ((c : Thread nD τ).loc main_arg5)) (srcOf (m ((c : Thread nD τ).loc main_arg1)))) := by
  show StableHlo.after hostOps2 (W4 m ρ c) (Proc.devRef .tc main_v22) = _
  dsimp only [hostOps2]
  after_results
  rw [dst_at4 m ρ c, dst_at1 m ρ c, edge1_at4 m ρ c]
  rfl

/-! ### Region 2: the hidden features -/

theorem hidden_at6 : W6 m ρ c (Proc.devRef .tc main_v23) = hidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg1)) := by
  refine (W6_arr m ρ c 3).trans ((Region2.final (V5 m ρ) c).trans ?_)
  rw [show V5 m ρ c main_v10 = _ from (self1_at5 m ρ c).trans (self1_at2 m ρ c),
    show V5 m ρ c main_v22 = _ from sum1_at5 m ρ c,
    show V5 m ρ c main_v8 = _ from (deg_at5 m ρ c).trans (deg_at1 m ρ c)]
  rfl

/-! ### The fourth stretch and region 3: the second self term -/

/-- The hidden features are untouched by the fourth stretch. -/
theorem hidden_at7 : W7 m ρ c (Proc.devRef .tc main_v23) = W6 m ρ c (Proc.devRef .tc main_v23) :=
  calc W7 m ρ c (Proc.devRef .tc main_v23)
    _ = W6 m ρ c (Proc.devRef .tc main_v23) := by host_keeps

/-- The second self weights are as launched when region 3 starts. -/
theorem arg6_at7 : W7 m ρ c (Proc.devRef .tc main_arg6) = m ((c : Thread nD τ).loc main_arg6) :=
  calc W7 m ρ c (Proc.devRef .tc main_arg6)
    _ = W6 m ρ c (Proc.devRef .tc main_arg6) := by host_keeps
    _ = W5 m ρ c (Proc.devRef .tc main_arg6) := W6_of_ne m ρ c main_arg6 (by decide)
    _ = W4 m ρ c (Proc.devRef .tc main_arg6) := by host_keeps
    _ = W3 m ρ c (Proc.devRef .tc main_arg6) := W4_of_ne m ρ c main_arg6 (by decide)
    _ = W2 m ρ c (Proc.devRef .tc main_arg6) := by host_keeps
    _ = W1 m ρ c (Proc.devRef .tc main_arg6) := W2_of_ne m ρ c main_arg6 (by decide)
    _ = W0 m ρ c (Proc.devRef .tc main_arg6) := by host_keeps
    _ = m ((c : Thread nD τ).loc main_arg6) := rfl

/-- The second self bias is as launched. -/
theorem arg7_at6 : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by host_keeps
    _ = W3 m ρ c (Proc.devRef .tc main_arg7) := W4_of_ne m ρ c main_arg7 (by decide)
    _ = W2 m ρ c (Proc.devRef .tc main_arg7) := by host_keeps
    _ = W1 m ρ c (Proc.devRef .tc main_arg7) := W2_of_ne m ρ c main_arg7 (by decide)
    _ = W0 m ρ c (Proc.devRef .tc main_arg7) := by host_keeps
    _ = m ((c : Thread nD τ).loc main_arg7) := rfl

theorem bias3_at7 : W7 m ρ c (Proc.devRef .tc main_v24) = shapeCast S1x64 (m ((c : Thread nD τ).loc main_arg7)) shapeCasts_S64_S1x64 := by
  show StableHlo.after hostOps3 (W6 m ρ c) (Proc.devRef .tc main_v24) = _
  dsimp only [hostOps3]
  after_results
  rw [arg7_at6 m ρ c]
  rfl

theorem self2_at8 : W8 m ρ c (Proc.devRef .tc main_v25) = self2 (hidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg1))) (m ((c : Thread nD τ).loc main_arg6)) (m ((c : Thread nD τ).loc main_arg7)) := by
  refine (W8_arr m ρ c 3).trans ((Region3.final (V7 m ρ) c).trans ?_)
  rw [show V7 m ρ c main_v23 = _ from (hidden_at7 m ρ c).trans (hidden_at6 m ρ c),
    show V7 m ρ c main_arg6 = (m ((c : Thread nD τ).loc main_arg6)) from arg6_at7 m ρ c, show V7 m ρ c main_v24 = _ from bias3_at7 m ρ c]
  rfl

/-! ### The fifth stretch and region 4: the second neighbour terms -/

/-- The hidden features are still there after region 3 (which only reads them). -/
theorem hidden_at8 : W8 m ρ c (Proc.devRef .tc main_v23) = W6 m ρ c (Proc.devRef .tc main_v23) :=
  calc W8 m ρ c (Proc.devRef .tc main_v23)
    _ = W7 m ρ c (Proc.devRef .tc main_v23) := (W8_arr m ρ c 0).trans (((dat3 (V7 m ρ) c).arrAt_in 0 rfl _).trans (A_eq3 (V7 m ρ) c 0))
    _ = W6 m ρ c (Proc.devRef .tc main_v23) := by host_keeps

/-- The source nodes are untouched so far. -/
theorem src_at8 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keeps
    _ = W5 m ρ c (Proc.devRef .tc main_v1) := W6_of_ne m ρ c main_v1 (by decide)
    _ = W4 m ρ c (Proc.devRef .tc main_v1) := by host_keeps
    _ = W3 m ρ c (Proc.devRef .tc main_v1) := W4_of_ne m ρ c main_v1 (by decide)
    _ = W2 m ρ c (Proc.devRef .tc main_v1) := by host_keeps
    _ = W1 m ρ c (Proc.devRef .tc main_v1) := W2_of_ne m ρ c main_v1 (by decide)

/-- The second neighbour bias is as launched. -/
theorem arg9_at8 : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := by host_keeps
    _ = W5 m ρ c (Proc.devRef .tc main_arg9) := W6_of_ne m ρ c main_arg9 (by decide)
    _ = W4 m ρ c (Proc.devRef .tc main_arg9) := by host_keeps
    _ = W3 m ρ c (Proc.devRef .tc main_arg9) := W4_of_ne m ρ c main_arg9 (by decide)
    _ = W2 m ρ c (Proc.devRef .tc main_arg9) := by host_keeps
    _ = W1 m ρ c (Proc.devRef .tc main_arg9) := W2_of_ne m ρ c main_arg9 (by decide)
    _ = W0 m ρ c (Proc.devRef .tc main_arg9) := by host_keeps
    _ = m ((c : Thread nD τ).loc main_arg9) := rfl

/-- The second neighbour weights are as launched when region 4 starts. -/
theorem arg8_at9 : W9 m ρ c (Proc.devRef .tc main_arg8) = m ((c : Thread nD τ).loc main_arg8) :=
  calc W9 m ρ c (Proc.devRef .tc main_arg8)
    _ = W8 m ρ c (Proc.devRef .tc main_arg8) := by host_keeps
    _ = W7 m ρ c (Proc.devRef .tc main_arg8) := W8_of_ne m ρ c main_arg8 (by decide)
    _ = W6 m ρ c (Proc.devRef .tc main_arg8) := by host_keeps
    _ = W5 m ρ c (Proc.devRef .tc main_arg8) := W6_of_ne m ρ c main_arg8 (by decide)
    _ = W4 m ρ c (Proc.devRef .tc main_arg8) := by host_keeps
    _ = W3 m ρ c (Proc.devRef .tc main_arg8) := W4_of_ne m ρ c main_arg8 (by decide)
    _ = W2 m ρ c (Proc.devRef .tc main_arg8) := by host_keeps
    _ = W1 m ρ c (Proc.devRef .tc main_arg8) := W2_of_ne m ρ c main_arg8 (by decide)
    _ = W0 m ρ c (Proc.devRef .tc main_arg8) := by host_keeps
    _ = m ((c : Thread nD τ).loc main_arg8) := rfl

theorem nbr2_at9 : W9 m ρ c (Proc.devRef .tc main_v32) = neighbours (hidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg1))) (srcOf (m ((c : Thread nD τ).loc main_arg1))) := by
  show StableHlo.after hostOps4 (W8 m ρ c) (Proc.devRef .tc main_v32) = _
  dsimp only [hostOps4]
  after_results
  rw [hidden_at8 m ρ c, hidden_at6 m ρ c, src_at8 m ρ c, src_at1 m ρ c]
  rfl
theorem bias4_at9 : W9 m ρ c (Proc.devRef .tc main_v33) = shapeCast S1x64 (m ((c : Thread nD τ).loc main_arg9)) shapeCasts_S64_S1x64 := by
  show StableHlo.after hostOps4 (W8 m ρ c) (Proc.devRef .tc main_v33) = _
  dsimp only [hostOps4]
  after_results
  rw [arg9_at8 m ρ c]
  rfl

theorem edge2_at10 : W10 m ρ c (Proc.devRef .tc main_v34) = edge2 (hidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg1))) (m ((c : Thread nD τ).loc main_arg8)) (m ((c : Thread nD τ).loc main_arg9)) (srcOf (m ((c : Thread nD τ).loc main_arg1))) := by
  refine (W10_arr m ρ c 3).trans ((Region4.final (V9 m ρ) c).trans ?_)
  rw [show V9 m ρ c main_v32 = _ from nbr2_at9 m ρ c, show V9 m ρ c main_arg8 = (m ((c : Thread nD τ).loc main_arg8)) from arg8_at9 m ρ c,
    show V9 m ρ c main_v33 = _ from bias4_at9 m ρ c]
  rfl

/-! ### The last stretch and region 5: the output -/

/-- The destination nodes are untouched so far. -/
theorem dst_at10 : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keeps
    _ = W7 m ρ c (Proc.devRef .tc main_v3) := W8_of_ne m ρ c main_v3 (by decide)
    _ = W6 m ρ c (Proc.devRef .tc main_v3) := by host_keeps
    _ = W5 m ρ c (Proc.devRef .tc main_v3) := W6_of_ne m ρ c main_v3 (by decide)
    _ = W4 m ρ c (Proc.devRef .tc main_v3) := by host_keeps
    _ = W3 m ρ c (Proc.devRef .tc main_v3) := W4_of_ne m ρ c main_v3 (by decide)
    _ = W2 m ρ c (Proc.devRef .tc main_v3) := by host_keeps
    _ = W1 m ρ c (Proc.devRef .tc main_v3) := W2_of_ne m ρ c main_v3 (by decide)

/-- The second self term is untouched since region 3. -/
theorem self2_at11 : W11 m ρ c (Proc.devRef .tc main_v25) = W8 m ρ c (Proc.devRef .tc main_v25) :=
  calc W11 m ρ c (Proc.devRef .tc main_v25)
    _ = W10 m ρ c (Proc.devRef .tc main_v25) := by host_keeps
    _ = W9 m ρ c (Proc.devRef .tc main_v25) := W10_of_ne m ρ c main_v25 (by decide)
    _ = W8 m ρ c (Proc.devRef .tc main_v25) := by host_keeps

/-- The in-degrees are untouched throughout (region 2 only reads them). -/
theorem deg_at11 : W11 m ρ c (Proc.devRef .tc main_v8) = W1 m ρ c (Proc.devRef .tc main_v8) :=
  calc W11 m ρ c (Proc.devRef .tc main_v8)
    _ = W10 m ρ c (Proc.devRef .tc main_v8) := by host_keeps
    _ = W9 m ρ c (Proc.devRef .tc main_v8) := W10_of_ne m ρ c main_v8 (by decide)
    _ = W8 m ρ c (Proc.devRef .tc main_v8) := by host_keeps
    _ = W7 m ρ c (Proc.devRef .tc main_v8) := W8_of_ne m ρ c main_v8 (by decide)
    _ = W6 m ρ c (Proc.devRef .tc main_v8) := by host_keeps
    _ = W5 m ρ c (Proc.devRef .tc main_v8) := (W6_arr m ρ c 2).trans (((dat2 (V5 m ρ) c).arrAt_in 2 rfl _).trans (A_eq2 (V5 m ρ) c 2))
    _ = W4 m ρ c (Proc.devRef .tc main_v8) := by host_keeps
    _ = W3 m ρ c (Proc.devRef .tc main_v8) := W4_of_ne m ρ c main_v8 (by decide)
    _ = W2 m ρ c (Proc.devRef .tc main_v8) := by host_keeps
    _ = W1 m ρ c (Proc.devRef .tc main_v8) := W2_of_ne m ρ c main_v8 (by decide)

theorem sum2_at11 : W11 m ρ c (Proc.devRef .tc main_v37)
    = segSum64 (dstOf (m ((c : Thread nD τ).loc main_arg1))) (edge2 (hidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg1))) (m ((c : Thread nD τ).loc main_arg8)) (m ((c : Thread nD τ).loc main_arg9)) (srcOf (m ((c : Thread nD τ).loc main_arg1)))) := by
  show StableHlo.after hostOps5 (W10 m ρ c) (Proc.devRef .tc main_v37) = _
  dsimp only [hostOps5]
  after_results
  rw [dst_at10 m ρ c, dst_at1 m ρ c, edge2_at10 m ρ c]
  rfl

/-- The result array after the last region is the network of the argument arrays as launched. -/
theorem result_value : W12 m ρ c (Proc.devRef .tc main_v38) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 3).trans ((Region5.final (V11 m ρ) c).trans ?_)
  rw [show V11 m ρ c main_v25 = _ from (self2_at11 m ρ c).trans (self2_at8 m ρ c),
    show V11 m ρ c main_v37 = _ from sum2_at11 m ρ c,
    show V11 m ρ c main_v8 = _ from (deg_at11 m ρ c).trans (deg_at1 m ρ c)]
  rfl

end Cert.KernelIdeal.Net

end
-- ==== Proof.Bridge.lean ====
/-
  The reference program's result is the same network of the argument arrays.

  The host program spells a dense layer as a `dot_general` plus the bias broadcast first to a row and then down the rows, and
  the combine as the self term plus the quotient of the summed neighbour terms by the in-degree clamped below by one,
  broadcast first to a column and then across the columns; its `relu` is the maximum with a zero array.  Each of these is
  the whole-array layer the tiled regions compute (LibSageLayers), with the same gather of neighbour rows and the same per-node
  sums between them, so the composed term of the reference's run is the network `net` of the tile program.
-/
import proofs.«129675_j14929306321143_1_alg».proof.Proof.Gen.ReferenceIdeal.Run
import proofs.«129675_j14929306321143_1_alg».proof.Proof.LibSageLayers
import proofs.«129675_j14929306321143_1_alg».proof.Proof.KernelValue

set_option maxRecDepth 16384

noncomputable section

namespace Cert.ReferenceIdeal.Net

open Cert.ReferenceIdeal Cert.ReferenceIdeal.Gen Cert.ReferenceIdeal.Value
open Idealize.ShloMosaic Idealize.ShloMosaic.TcCoe Idealize.SL.Sem

/-! ## The host's layers, over the reference's own records -/

theorem self1_host (X : FVec Ideal S100000x128 .f32) (W : FVec Ideal S128x128 .f32) (b : FVec Ideal S128 .f32) :
    addf (Host.dotGeneral dot_S100000x128_S128x128_S100000x128_1_0_0_1_n_n none X W)
        (broadcastInDim S100000x128 ![0, 1] bcast_S1x128_S100000x128_0_1 (broadcastInDim S1x128 ![1] bcast_S128_S1x128_1 b))
      = Cert.KernelIdeal.Net.self1 X W b :=
  Sage.dense_host dot_S100000x128_S128x128_S100000x128_1_0_0_1_n_n_wf X W b bcast_S128_S1x128_1 bcast_S1x128_S100000x128_0_1
    Cert.KernelIdeal.Facts₀.shapeCasts_S128_S1x128

theorem edge1_host (X : FVec Ideal S600000x128 .f32) (W : FVec Ideal S128x128 .f32) (b : FVec Ideal S128 .f32) :
    addf (Host.dotGeneral dot_S600000x128_S128x128_S600000x128_1_0_0_1_n_n none X W)
        (broadcastInDim S600000x128 ![0, 1] bcast_S1x128_S600000x128_0_1 (broadcastInDim S1x128 ![1] bcast_S128_S1x128_1 b))
      = Sage.dense (M := 600000) (K := 128) (N := 128) X W (shapeCast Cert.KernelIdeal.S1x128 b Cert.KernelIdeal.Facts₀.shapeCasts_S128_S1x128) :=
  Sage.dense_host dot_S600000x128_S128x128_S600000x128_1_0_0_1_n_n_wf X W b bcast_S128_S1x128_1 bcast_S1x128_S600000x128_0_1
    Cert.KernelIdeal.Facts₀.shapeCasts_S128_S1x128

theorem self2_host (X : FVec Ideal S100000x128 .f32) (W : FVec Ideal S128x64 .f32) (b : FVec Ideal S64 .f32) :
    addf (Host.dotGeneral dot_S100000x128_S128x64_S100000x64_1_0_0_1_n_n none X W)
        (broadcastInDim S100000x64 ![0, 1] bcast_S1x64_S100000x64_0_1 (broadcastInDim S1x64 ![1] bcast_S64_S1x64_1 b))
      = Cert.KernelIdeal.Net.self2 X W b :=
  Sage.dense_host dot_S100000x128_S128x64_S100000x64_1_0_0_1_n_n_wf X W b bcast_S64_S1x64_1 bcast_S1x64_S100000x64_0_1
    Cert.KernelIdeal.Facts₀.shapeCasts_S64_S1x64

theorem edge2_host (X : FVec Ideal S600000x128 .f32) (W : FVec Ideal S128x64 .f32) (b : FVec Ideal S64 .f32) :
    addf (Host.dotGeneral dot_S600000x128_S128x64_S600000x64_1_0_0_1_n_n none X W)
        (broadcastInDim S600000x64 ![0, 1] bcast_S1x64_S600000x64_0_1 (broadcastInDim S1x64 ![1] bcast_S64_S1x64_1 b))
      = Sage.dense (M := 600000) (K := 128) (N := 64) X W (shapeCast Cert.KernelIdeal.S1x64 b Cert.KernelIdeal.Facts₀.shapeCasts_S64_S1x64) :=
  Sage.dense_host dot_S600000x128_S128x64_S600000x64_1_0_0_1_n_n_wf X W b bcast_S64_S1x64_1 bcast_S1x64_S600000x64_0_1
    Cert.KernelIdeal.Facts₀.shapeCasts_S64_S1x64

theorem hidden_host (wh s : FVec Ideal S100000x128 .f32) (cnt : FVec Ideal S100000 .f32) :
    maximumf (addf wh (Host.divf s (broadcastInDim S100000x128 ![0, 1] bcast_S100000x1_S100000x128_0_1
        (broadcastInDim S100000x1 ![0] bcast_S100000_S100000x1_0
          (maximumf cnt (broadcastInDim S100000 ![] bcast_S_S100000 (constant (F := Ideal) S_ .f32 0x3F800000#32)))))))
        (broadcastInDim S100000x128 ![] bcast_S_S100000x128 (constant (F := Ideal) S_ .f32 0x00000000#32))
      = Sage.combineRelu (M := 100000) (N := 128) wh s (shapeCast Cert.KernelIdeal.S100000x1 cnt Cert.KernelIdeal.Facts₀.shapeCasts_S100000_S100000x1) :=
  Sage.combineRelu_host wh s cnt bcast_S_S100000 bcast_S100000_S100000x1_0 bcast_S100000x1_S100000x128_0_1 bcast_S_S100000x128
    Cert.KernelIdeal.Facts₀.shapeCasts_S100000_S100000x1

theorem out_host (wh s : FVec Ideal S100000x64 .f32) (cnt : FVec Ideal S100000 .f32) :
    addf wh (Host.divf s (broadcastInDim S100000x64 ![0, 1] bcast_S100000x1_S100000x64_0_1
        (broadcastInDim S100000x1 ![0] bcast_S100000_S100000x1_0
          (maximumf cnt (broadcastInDim S100000 ![] bcast_S_S100000 (constant (F := Ideal) S_ .f32 0x3F800000#32))))))
      = Sage.combine (M := 100000) (N := 64) wh s (shapeCast Cert.KernelIdeal.S100000x1 cnt Cert.KernelIdeal.Facts₀.shapeCasts_S100000_S100000x1) :=
  Sage.combine_host wh s cnt bcast_S_S100000 bcast_S100000_S100000x1_0 bcast_S100000x1_S100000x64_0_1
    Cert.KernelIdeal.Facts₀.shapeCasts_S100000_S100000x1

/-! ## The reference's composed term -/

variable (m : (ℓ : Loc nD τ sig) → Buf (Elt Ideal) ℓ) (c : Dev nD)

/-- The reference run's result term is the tile program's network of the same argument arrays. -/
theorem result_value : res_out0 (F := Ideal) m c
    = Cert.KernelIdeal.Net.net (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) := by
  show res_main_v60 (F := Ideal) m c = _
  unfold res_main_v60
  rw [self1_host, edge1_host, hidden_host, self2_host, edge2_host, out_host]
  rfl

end Cert.ReferenceIdeal.Net

end
-- ==== Proof.lean ====
/-
  A two-layer GraphSAGE forward pass: tiled regions for the dense layers and the combines, host operations for the gather of
  neighbour rows and the per-node sums, against the plain host program.

  Over the extended reals both programs compute the same network of their ten arguments: each layer is
    self-term + (sum over the incoming edges of the neighbour terms) / max(in-degree, 1),
  the self term and the neighbour terms dense layers  x · W + b,  the positive part taken after the first layer.  The tile
  program rounds the dense layers' operands to bf16 before the product (the identity on extended reals), accumulates into a
  zero accumulator, keeps each bias as a row and the in-degree as a column, and computes the in-degree once; the host program
  uses `dot_general`, broadcasts, and computes the in-degree per layer from the same edge list.  Entry by entry these are the
  same sums and quotients, and the gathers and per-node sums between them are the same host functions of equal arrays.  No
  law that needs finite values is used, so the finiteness of the inputs is never opened.

  The three frames: the two tile programs' are the generated frame certificates; the reference's is its generated run with
  the result dropped.  The idealization rewrote nothing, so `preserves` is trivial.
-/
import proofs.«129675_j14929306321143_1_alg».proof.Defs
import proofs.«129675_j14929306321143_1_alg».proof.Proof.Gen.Kernel
import proofs.«129675_j14929306321143_1_alg».proof.Proof.Gen.Kernel.Skeleton
import proofs.«129675_j14929306321143_1_alg».proof.Proof.Gen.Kernel.Launch
import proofs.«129675_j14929306321143_1_alg».proof.Proof.Gen.Kernel.Points
import proofs.«129675_j14929306321143_1_alg».proof.Proof.Gen.Kernel.Frame
import proofs.«129675_j14929306321143_1_alg».proof.Proof.Gen.KernelIdeal
import proofs.«129675_j14929306321143_1_alg».proof.Proof.Gen.KernelIdeal.Skeleton
import proofs.«129675_j14929306321143_1_alg».proof.Proof.Gen.KernelIdeal.Launch
import proofs.«129675_j14929306321143_1_alg».proof.Proof.Gen.KernelIdeal.Points
import proofs.«129675_j14929306321143_1_alg».proof.Proof.Gen.KernelIdeal.Frame
import proofs.«129675_j14929306321143_1_alg».proof.Proof.Gen.ReferenceIdeal
import proofs.«129675_j14929306321143_1_alg».proof.Proof.Gen.Pre_finite_inputs
import proofs.«129675_j14929306321143_1_alg».proof.Proof.Gen.ReferenceIdeal.Run
import proofs.«129675_j14929306321143_1_alg».proof.Proof.KernelRun
import proofs.«129675_j14929306321143_1_alg».proof.Proof.KernelValue
import proofs.«129675_j14929306321143_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result arrays at the network of those
    arguments: the tile program's by reading its segments (KernelValue), the reference's by its composed term (Bridge). -/
theorem algebraic : Cert.algebraic_KernelIdeal_ReferenceIdeal := by
  intro m ρ m' ρ' _ hagree
  refine ⟨fun c => Cert.KernelIdeal.Net.net
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Net.result_value m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    refine (Cert.ReferenceIdeal.Net.result_value m' c).trans ?_
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
